-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S16x128 : Shape := ⟨2, ![16, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S16x128 : S_.BroadcastsInDim S16x128 (![] : Fin 0 → Fin S16x128.rank)
  reducesTo_S16x128_S_d0_1 : S16x128.ReducesTo [0, 1] S_

variable [Facts]

def fn {F : FTy → Type} [FloatOps F] (main_arg0 : FVec F S100000x128 .f32) (main_arg1 : FVec F S16x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S16x128 .f32 := Host.absf main_arg1
  let main_cst_0 : FVec F S_ .f32 := constant S_ .f32 0x7F800000#32
  let main_v5 : FVec F S16x128 .f32 := broadcastInDim S16x128 ![] bcast_S_S16x128 main_cst_0
  let main_v6 : IVec S16x128 1 := cmpf .olt main_v4 main_v5
  let main_c_1 : IVec S_ 1 := constantI S_ 1 1#1
  let main_v7 : IVec S_ 1 := (fun x v => Host.reduce IntOp.andi x v reducesTo_S16x128_S_d0_1 h_S_) main_v6 main_c_1
  let main_v8 : IVec S_ 1 := andi main_v3 main_v7
  main_v8
-- ==== Kernel.lean ====
abbrev S100000x128 : Shape := ⟨2, ![100000, 128]⟩
abbrev S16x128 : Shape := ⟨2, ![16, 128]⟩
abbrev S16x100000 : Shape := ⟨2, ![16, 100000]⟩
abbrev S25600x128 : Shape := ⟨2, ![25600, 128]⟩
abbrev S16x25600 : Shape := ⟨2, ![16, 25600]⟩
abbrev S128x25600 : Shape := ⟨2, ![128, 25600]⟩
abbrev S25600 : Shape := ⟨1, ![25600]⟩
abbrev S1x25600 : Shape := ⟨2, ![1, 25600]⟩
abbrev S16 : Shape := ⟨1, ![16]⟩
abbrev S16x1 : Shape := ⟨2, ![16, 1]⟩
abbrev S100000x16 : Shape := ⟨2, ![100000, 16]⟩

abbrev nBuf : Space → Nat
  | .hbm => 4
  | .vmem => 5
  | .smem => 0
  | _ => 0

abbrev bufTy : (tb : Table) → Fin (tcTables nBuf tb) → BufTy
  | .hbm, ⟨0, _⟩ => ⟨S100000x128, .f32⟩
  | .hbm, ⟨1, _⟩ => ⟨S16x128, .f32⟩
  | .hbm, ⟨2, _⟩ => ⟨S16x100000, .f32⟩
  | .hbm, ⟨3, _⟩ => ⟨S100000x16, .f32⟩
  | .local _ .vmem, ⟨0, _⟩ => ⟨S25600x128, .f32⟩
  | .local _ .vmem, ⟨1, _⟩ => ⟨S25600x128, .f32⟩
  | .local _ .vmem, ⟨2, _⟩ => ⟨S16x128, .f32⟩
  | .local _ .vmem, ⟨3, _⟩ => ⟨S16x25600, .f32⟩
  | .local _ .vmem, ⟨4, _⟩ => ⟨S16x25600, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S25600x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S16x25600 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S25600x128_S25600x128_0_0 : ∀ a, (![0, 0] : Fin 2 → Nat) a + S25600x128.size a ≤ S25600x128.size a
  h_S25600x128 : 0 < S25600x128.numel
  transposes_S25600x128_p1_0_S128x25600 : S25600x128.Transposes [1, 0] S128x25600
  reduces_S128x25600_S25600 : S128x25600.Reduces [0] S25600
  shapeCasts_S25600_S1x25600 : S25600.ShapeCasts S1x25600
  inb_S16x128_S16x128_0_0 : ∀ a, (![0, 0] : Fin 2 → Nat) a + S16x128.size a ≤ S16x128.size a
  h_S16x128 : 0 < S16x128.numel
  reduces_S16x128_S16 : S16x128.Reduces [1] S16
  shapeCasts_S16_S16x1 : S16.ShapeCasts S16x1
  broadcasts_S1x25600_S16x25600 : S1x25600.Broadcasts S16x25600
  broadcasts_S16x1_S16x25600 : S16x1.Broadcasts S16x25600
  reduces_S16x25600_S25600 : S16x25600.Reduces [0] S25600
  inb_S16x25600_S16x25600_0_0 : ∀ a, (![0, 0] : Fin 2 → Nat) a + S16x25600.size a ≤ S16x25600.size a
  h_S16x25600 : 0 < S16x25600.numel
  transposes_S16x100000_S100000x16_1_0 : S16x100000.Transposes [1, 0] S100000x16
  dot_S16x128_S128x25600_S16x25600_1_0_0_1_n_n_wf : DotDims.WF S16x128 S128x25600 S16x25600 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S25600x128.size a < S100000x128.size a
  hwx0_0 : ∀ i : grid0.Coords, EltTy.bits .f32 = 32 ∨ (Rect.unit (s := S100000x128) (fun a => cc0_transform_0 i a * S25600x128.size a) (fun a => (Pipeline.Clip.of (cc0_transform_0 i a) (S25600x128.size a) (S100000x128.size a)).extent (S25600x128.size a)) fun a => Pipeline.Clip.inb (Pipeline.Clip.ok_of (hstart0_0 i a))).WholeWords (EltTy.packing .f32)
  hwxs0_0 : ∀ i : grid0.Coords, EltTy.bits .f32 = 32 ∨ (Rect.unit (s := S25600x128) (fun _ => 0) (fun a => (Pipeline.Clip.of (cc0_transform_0 i a) (S25600x128.size a) (S100000x128.size a)).extent (S25600x128.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x128.size a ≤ S16x128.size a
  hwx0_1 : ∀ i : grid0.Coords, EltTy.bits .f32 = 32 ∨ (Rect.block (s := S16x128) S16x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S16x25600.size a < S16x100000.size a
  hwx0_2 : ∀ i : grid0.Coords, EltTy.bits .f32 = 32 ∨ (Rect.unit (s := S16x100000) (fun a => cc0_transform_2 i a * S16x25600.size a) (fun a => (Pipeline.Clip.of (cc0_transform_2 i a) (S16x25600.size a) (S16x100000.size a)).extent (S16x25600.size a)) fun a => Pipeline.Clip.inb (Pipeline.Clip.ok_of (hstart0_2 i a))).WholeWords (EltTy.packing .f32)
  hwxs0_2 : ∀ i : grid0.Coords, EltTy.bits .f32 = 32 ∨ (Rect.unit (s := S16x25600) (fun _ => 0) (fun a => (Pipeline.Clip.of (cc0_transform_2 i a) (S16x25600.size a) (S16x100000.size a)).extent (S16x25600.size a)) fun a => (Nat.zero_add _).trans_le (Pipeline.Clip.extent_le (Pipeline.Clip.ok_of (hstart0_2 i a)))).WholeWords (EltTy.packing .f32)

variable [Facts₀]

def dot_S16x128_S128x25600_S16x25600_1_0_0_1_n_n : DotDims S16x128 S128x25600 S16x25600 where
  lhsContracting := [1]
  rhsContracting := [0]
  lhsNonContracting := [0]
  rhsNonContracting := [1]
  lhsBatch := []
  rhsBatch := []
  wf := dot_S16x128_S128x25600_S16x25600_1_0_0_1_n_n_wf

abbrev win0_0 : Pipeline.Window sig grid0 :=
  Pipeline.Window.ofSpecClip (Memref.whole main_arg0) S25600x128.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_arg1) S16x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpecClip (Memref.whole main_v0) S16x25600.size cc0_transform_2 reads0_2 true false 2 stage0_2 sem0_2
    hrank0 hreads0_2 hstart0_2 nbuf0_2 (Memref.isWhole_whole _) hwx0_2 hwxs0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S100000x128 : Shape := ⟨2, ![100000, 128]⟩
abbrev S16x128 : Shape := ⟨2, ![16, 128]⟩
abbrev S_ : Shape := ⟨0, ![]⟩
abbrev S100000 : Shape := ⟨1, ![100000]⟩
abbrev S100000x1 : Shape := ⟨2, ![100000, 1]⟩
abbrev S16 : Shape := ⟨1, ![16]⟩
abbrev S1x16 : Shape := ⟨2, ![1, 16]⟩
abbrev S100000x16 : Shape := ⟨2, ![100000, 16]⟩
abbrev S128x16 : Shape := ⟨2, ![128, 16]⟩

abbrev nBuf : Space → Nat
  | .hbm => 36
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S16x128, .f32⟩
  | .hbm, ⟨2, _⟩ => ⟨S100000x128, .f32⟩
  | .hbm, ⟨3, _⟩ => ⟨S_, .f32⟩
  | .hbm, ⟨4, _⟩ => ⟨S100000, .f32⟩
  | .hbm, ⟨5, _⟩ => ⟨S100000x1, .f32⟩
  | .hbm, ⟨6, _⟩ => ⟨S16x128, .f32⟩
  | .hbm, ⟨7, _⟩ => ⟨S_, .f32⟩
  | .hbm, ⟨8, _⟩ => ⟨S16, .f32⟩
  | .hbm, ⟨9, _⟩ => ⟨S1x16, .f32⟩
  | .hbm, ⟨10, _⟩ => ⟨S100000x16, .f32⟩
  | .hbm, ⟨11, _⟩ => ⟨S100000x16, .f32⟩
  | .hbm, ⟨12, _⟩ => ⟨S100000x16, .f32⟩
  | .hbm, ⟨13, _⟩ => ⟨S128x16, .f32⟩
  | .hbm, ⟨14, _⟩ => ⟨S100000x16, .f32⟩
  | .hbm, ⟨15, _⟩ => ⟨S_, .f32⟩
  | .hbm, ⟨16, _⟩ => ⟨S100000x16, .f32⟩
  | .hbm, ⟨17, _⟩ => ⟨S100000x16, .f32⟩
  | .hbm, ⟨18, _⟩ => ⟨S100000x16, .f32⟩
  | .hbm, ⟨19, _⟩ => ⟨S_, .f32⟩
  | .hbm, ⟨20, _⟩ => ⟨S100000x16, .f32⟩
  | .hbm, ⟨21, _⟩ => ⟨S100000x16, .f32⟩
  | .hbm, ⟨22, _⟩ => ⟨S_, .f32⟩
  | .hbm, ⟨23, _⟩ => ⟨S100000x16, .f32⟩
  | .hbm, ⟨24, _⟩ => ⟨S100000x16, .f32⟩
  | .hbm, ⟨25, _⟩ => ⟨S_, .f32⟩
  | .hbm, ⟨26, _⟩ => ⟨S100000x16, .f32⟩
  | .hbm, ⟨27, _⟩ => ⟨S100000x16, .f32⟩
  | .hbm, ⟨28, _⟩ => ⟨S_, .f32⟩
  | .hbm, ⟨29, _⟩ => ⟨S100000x16, .f32⟩
  | .hbm, ⟨30, _⟩ => ⟨S100000x16, .f32⟩
  | .hbm, ⟨31, _⟩ => ⟨S_, .f32⟩
  | .hbm, ⟨32, _⟩ => ⟨S100000, .f32⟩
  | .hbm, ⟨33, _⟩ => ⟨S100000x1, .f32⟩
  | .hbm, ⟨34, _⟩ => ⟨S100000x16, .f32⟩
  | .hbm, ⟨35, _⟩ => ⟨S100000x16, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_v17 : Ref sig .tc := ⟨.hbm, 24, rfl⟩
abbrev main_cst_4 : Ref sig .tc := ⟨.hbm, 25, rfl⟩
abbrev main_v18 : Ref sig .tc := ⟨.hbm, 26, rfl⟩
abbrev main_v19 : Ref sig .tc := ⟨.hbm, 27, rfl⟩
abbrev main_cst_5 : Ref sig .tc := ⟨.hbm, 28, rfl⟩
abbrev main_v20 : Ref sig .tc := ⟨.hbm, 29, rfl⟩
abbrev main_v21 : Ref sig .tc := ⟨.hbm, 30, rfl⟩
abbrev main_cst_6 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]

class Facts₀ : Prop where
  reducesTo_S100000x128_S100000_d1 : S100000x128.ReducesTo [1] S100000
  h_S_ : 0 < S_.numel
  bcast_S100000_S100000x1_0 : S100000.BroadcastsInDim S100000x1 (![0] : Fin 1 → Fin S100000x1.rank)
  reducesTo_S16x128_S16_d1 : S16x128.ReducesTo [1] S16
  bcast_S16_S1x16_1 : S16.BroadcastsInDim S1x16 (![1] : Fin 1 → Fin S1x16.rank)
  bcast_S100000x1_S100000x16_0_1 : S100000x1.BroadcastsInDim S100000x16 (![0, 1] : Fin 2 → Fin S100000x16.rank)
  bcast_S1x16_S100000x16_0_1 : S1x16.BroadcastsInDim S100000x16 (![0, 1] : Fin 2 → Fin S100000x16.rank)
  transposes_S16x128_S128x16_1_0 : S16x128.Transposes [1, 0] S128x16
  bcast_S_S100000x16 : S_.BroadcastsInDim S100000x16 (![] : Fin 0 → Fin S100000x16.rank)
  reducesTo_S100000x16_S100000_d1 : S100000x16.ReducesTo [1] S100000
  dot_S100000x128_S128x16_S100000x16_1_0_0_1_n_n_wf : DotDims.WF S100000x128 S128x16 S100000x16 [1] [0] [0] [1] [] []

variable [Facts₀]

def dot_S100000x128_S128x16_S100000x16_1_0_0_1_n_n : DotDims S100000x128 S128x16 S100000x16 where
  lhsContracting := [1]
  rhsContracting := [0]
  lhsNonContracting := [0]
  rhsNonContracting := [1]
  lhsBatch := []
  rhsBatch := []
  wf := dot_S100000x128_S128x16_S100000x16_1_0_0_1_n_n_wf

class Facts : Prop extends Facts₀ where

variable [Facts]
-- ==== Proof.BodyBits.lean ====
/-
  The pipeline's proof data and the kernel body's triple, for any float instance.

  The call streams x in four blocks of 25600 rows (the last one reaches 2400 rows past the array's end)
  against the whole 16 x 128 table of centers, and writes a 16 x 25600 block of the transposed result per
  point.  What the staging buffers hold after the body: x's block (past the array's end a filler nothing
  reads), the centers, and the body's one stored value computed from those two.  The body itself is two
  whole loads, one dead load of the result buffer and one whole store: the result buffer ends holding the
  stored value of whatever the two input buffers hold.
-/
import proofs.«134959_g24592982736908_cont_9to1_845_14_alg».proof.Proof.Gen.Kernel.Skeleton
import proofs.«134959_g24592982736908_cont_9to1_845_14_alg».proof.Proof.Gen.Kernel.Launch
import proofs.«134959_g24592982736908_cont_9to1_845_14_alg».proof.Proof.Gen.Kernel.Points
import proofs.«134959_g24592982736908_cont_9to1_845_14_alg».proof.Proof.Gen.Kernel.Frame
import Idealize.ShloMosaic.Lib.Pipeline.Kit
import Idealize.ShloMosaic.Lib.Tactic

set_option maxRecDepth 16384

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The rows of x the fetch at point `t` reads: the block's part inside the array. -/
def xrows (c : Dev nD) (t : Fin cfg0.N) : (win0_0.xblock (grid0.coords t)).Idx → Elt F .f32 :=
  iblk m c 0 t

/-- The table of centers, the same block at every point. -/
def ctab (c : Dev nD) (t : Fin cfg0.N) : S16x128.Idx → Elt F .f32 :=
  iblk m c 1 t

/-- x's block at point `t` as a full 25600-row block: the rows inside the array, and the zero word on the
    rows past its end. -/
def xfull (c : Dev nD) (t : Fin cfg0.N) : S25600x128.Idx → Elt F .f32 :=
  win0_0.fill (grid0.coords t) (fun _ => Scalar.ofBits .f32 0#32) (xrows m c t)

/-- The block the body stores at point `t`: the stored value of x's full block and the table. -/
def outblk (c : Dev nD) (t : Fin cfg0.N) : S16x25600.Idx → Elt F .f32 :=
  k0_pay1 (xfull m c t) (ctab m c t)

/-- The proof data on device `c`: the arrays as the region finds them; after the body, x's buffer at its
    block, the centers' buffer at the table, the result's buffer at the stored value of those two. -/
def dats (_ : Fin 1) (c : Dev nD) : Dat τ (Elt F) Unit ℕ (UR sig nD τ) ℕ cfg0 c where
  A w := V m c (Pipeline.arrRef spec0 w)
  after w t := match w with
    | ⟨0, _⟩ => xfull m c t
    | ⟨1, _⟩ => ctab m c t
    | ⟨2, _⟩ => outblk m c t
  Φ _ := Pipeline.ΦA spec0 c
  q _ := fullShare
  owed _ := 0

/-- The result's window is never fetched. -/
theorem fetch0_2 : ∀ t : Fin cfg0.N, (cfg0.win 2).fetch t = false :=
  (by decide +kernel : ∀ t : Fin grid0.N, win0_2.fetch t = false)

/-- What the body finds in x's buffer: the rows inside the array just fetched, anything past them. -/
theorem before_0 (c : Dev nD) (t : Fin cfg0.N) (d) :
    (dats m 0 c).before (0 : Fin 3) t d = win0_0.fill (grid0.coords t) d (xrows m c t) := by
  unfold Dat.before; rw [if_pos (fetch0_0 t)]; rfl

/-- In the centers' buffer: the table, fetched at the first point and kept. -/
theorem before_1 (c : Dev nD) (t : Fin cfg0.N) (d) : (dats m 0 c).before (1 : Fin 3) t d = ctab m c t :=
  before0_1_of m (dats m 0 c) rfl (fun _ => rfl) t d

/-- In the result's buffer: contents nothing names (every point writes its block back). -/
theorem before_2 (c : Dev nD) (t : Fin cfg0.N) (d) : (dats m 0 c).before (2 : Fin 3) t d = d := by
  unfold Dat.before
  rw [if_neg (by rw [fetch0_2 t]; exact Bool.false_ne_true)]
  by_cases h0 : t.val = 0
  · rw [if_pos h0]
  · rw [if_neg h0]; exact if_pos (flush0_2 _)

/-! ## The body -/

/-- The kernel's variants: none. -/
abbrev 𝒱₀ : Variants := Variants.none

/-- The body on staging buffers `s0` of x's window, the centers' one buffer and `s2` of the result's: both
    inputs are left as found and the result's buffer ends at the stored value of what they hold. -/
theorem sound_body (c : Dev nD) (E : Set ℕ) (i : grid0.Coords) (s0 : Fin 2) (s1 : Fin 1) (s2 : Fin 2)
    (X0 : S25600x128.Idx → Elt F .f32) (X1 : S16x128.Idx → Elt F .f32) (X2 : S16x25600.Idx → Elt F .f32)
    (K : PUnit → sProp 𝕄) :
    iprop((owns (c : Thread nD τ) (stage0_0 s0) fullShare X0 ∗ owns (c : Thread nD τ) (stage0_1 s1) fullShare X1
            ∗ owns (c : Thread nD τ) (stage0_2 s2) fullShare X2)
          ∗ (iprop(owns (c : Thread nD τ) (stage0_0 s0) fullShare X0 ∗ owns (c : Thread nD τ) (stage0_1 s1) fullShare X1
                  ∗ owns (c : Thread nD τ) (stage0_2 s2) fullShare (k0_pay1 X0 X1)) -∗ K ⟨⟩))
      ⊢ wp frame (wpE (defs₀ (F := F)) 𝒱₀ c none) E
          (cc0__body i (stage0_0 s0) (hstage0_0 s0) (stage0_1 s1) (hstage0_1 s1) (stage0_2 s2) (hstage0_2 s2)) K := by
  have hz : (![0, 0] : Fin 2 → Nat) = fun _ => 0 := funext fun a => by fin_cases a <;> rfl
  fin_cases s0 <;> fin_cases s1 <;> fin_cases s2
  · have hr0 : (Memref.whole cc0_stg0_0 : Memref sig .tc _ _ _).view.readAt (Elt F) (Rect.unit (s := S25600x128) ![0, 0] S25600x128.size
        inb_S25600x128_S25600x128_0_0).toLoadRect = id := funext (Memref.readAt_unit_zero (Elt F) cc0_stg0_0 hz _)
    have hr1 : (Memref.whole cc0_stg1_0 : Memref sig .tc _ _ _).view.readAt (Elt F) (Rect.unit (s := S16x128) ![0, 0] S16x128.size
        inb_S16x128_S16x128_0_0).toLoadRect = id := funext (Memref.readAt_unit_zero (Elt F) cc0_stg1_0 hz _)
    have hw2 : ∀ f w, (((Memref.whole cc0_stg2_0).access (Rect.unit (s := S16x25600) ![0, 0] S16x25600.size inb_S16x25600_S16x25600_0_0)) :
        View sig .tc _ _ _).write (Elt F) f w Finset.univ = w := Memref.write_access_unit_zero_univ (Elt F) cc0_stg2_0 hz _
    simp only [owns_whole_eq, cc0__body_eq_skeleton]; unfold cc0__body_skel
    simp only [Prog.lift, Prog.bind_op, Prog.bind_ret]
    iintro ⟨⟨⟨%f0, %hf0, H0⟩, ⟨%f1, %hf1, H1⟩, ⟨%f2, %hf2, H2⟩⟩, Hk⟩
    sl_steps
    iapply Hk
    rw [hr0, hr1, hw2]
    isplitl [H0]
    · iexists f0; isplitr; · ipureintro; exact hf0
      iexact H0
    isplitl [H1]
    · iexists f1; isplitr; · ipureintro; exact hf1
      iexact H1
    · iexists k0_pay1 f0 f1; isplitr; · ipureintro; rw [hf0, hf1]
      iexact H2
  · have hr0 : (Memref.whole cc0_stg0_0 : Memref sig .tc _ _ _).view.readAt (Elt F) (Rect.unit (s := S25600x128) ![0, 0] S25600x128.size
        inb_S25600x128_S25600x128_0_0).toLoadRect = id := funext (Memref.readAt_unit_zero (Elt F) cc0_stg0_0 hz _)
    have hr1 : (Memref.whole cc0_stg1_0 : Memref sig .tc _ _ _).view.readAt (Elt F) (Rect.unit (s := S16x128) ![0, 0] S16x128.size
        inb_S16x128_S16x128_0_0).toLoadRect = id := funext (Memref.readAt_unit_zero (Elt F) cc0_stg1_0 hz _)
    have hw2 : ∀ f w, (((Memref.whole cc0_stg2_1).access (Rect.unit (s := S16x25600) ![0, 0] S16x25600.size inb_S16x25600_S16x25600_0_0)) :
        View sig .tc _ _ _).write (Elt F) f w Finset.univ = w := Memref.write_access_unit_zero_univ (Elt F) cc0_stg2_1 hz _
    simp only [owns_whole_eq, cc0__body_eq_skeleton]; unfold cc0__body_skel
    simp only [Prog.lift, Prog.bind_op, Prog.bind_ret]
    iintro ⟨⟨⟨%f0, %hf0, H0⟩, ⟨%f1, %hf1, H1⟩, ⟨%f2, %hf2, H2⟩⟩, Hk⟩
    sl_steps
    iapply Hk
    rw [hr0, hr1, hw2]
    isplitl [H0]
    · iexists f0; isplitr; · ipureintro; exact hf0
      iexact H0
    isplitl [H1]
    · iexists f1; isplitr; · ipureintro; exact hf1
      iexact H1
    · iexists k0_pay1 f0 f1; isplitr; · ipureintro; rw [hf0, hf1]
      iexact H2
  · have hr0 : (Memref.whole cc0_stg0_1 : Memref sig .tc _ _ _).view.readAt (Elt F) (Rect.unit (s := S25600x128) ![0, 0] S25600x128.size
        inb_S25600x128_S25600x128_0_0).toLoadRect = id := funext (Memref.readAt_unit_zero (Elt F) cc0_stg0_1 hz _)
    have hr1 : (Memref.whole cc0_stg1_0 : Memref sig .tc _ _ _).view.readAt (Elt F) (Rect.unit (s := S16x128) ![0, 0] S16x128.size
        inb_S16x128_S16x128_0_0).toLoadRect = id := funext (Memref.readAt_unit_zero (Elt F) cc0_stg1_0 hz _)
    have hw2 : ∀ f w, (((Memref.whole cc0_stg2_0).access (Rect.unit (s := S16x25600) ![0, 0] S16x25600.size inb_S16x25600_S16x25600_0_0)) :
        View sig .tc _ _ _).write (Elt F) f w Finset.univ = w := Memref.write_access_unit_zero_univ (Elt F) cc0_stg2_0 hz _
    simp only [owns_whole_eq, cc0__body_eq_skeleton]; unfold cc0__body_skel
    simp only [Prog.lift, Prog.bind_op, Prog.bind_ret]
    iintro ⟨⟨⟨%f0, %hf0, H0⟩, ⟨%f1, %hf1, H1⟩, ⟨%f2, %hf2, H2⟩⟩, Hk⟩
    sl_steps
    iapply Hk
    rw [hr0, hr1, hw2]
    isplitl [H0]
    · iexists f0; isplitr; · ipureintro; exact hf0
      iexact H0
    isplitl [H1]
    · iexists f1; isplitr; · ipureintro; exact hf1
      iexact H1
    · iexists k0_pay1 f0 f1; isplitr; · ipureintro; rw [hf0, hf1]
      iexact H2
  · have hr0 : (Memref.whole cc0_stg0_1 : Memref sig .tc _ _ _).view.readAt (Elt F) (Rect.unit (s := S25600x128) ![0, 0] S25600x128.size
        inb_S25600x128_S25600x128_0_0).toLoadRect = id := funext (Memref.readAt_unit_zero (Elt F) cc0_stg0_1 hz _)
    have hr1 : (Memref.whole cc0_stg1_0 : Memref sig .tc _ _ _).view.readAt (Elt F) (Rect.unit (s := S16x128) ![0, 0] S16x128.size
        inb_S16x128_S16x128_0_0).toLoadRect = id := funext (Memref.readAt_unit_zero (Elt F) cc0_stg1_0 hz _)
    have hw2 : ∀ f w, (((Memref.whole cc0_stg2_1).access (Rect.unit (s := S16x25600) ![0, 0] S16x25600.size inb_S16x25600_S16x25600_0_0)) :
        View sig .tc _ _ _).write (Elt F) f w Finset.univ = w := Memref.write_access_unit_zero_univ (Elt F) cc0_stg2_1 hz _
    simp only [owns_whole_eq, cc0__body_eq_skeleton]; unfold cc0__body_skel
    simp only [Prog.lift, Prog.bind_op, Prog.bind_ret]
    iintro ⟨⟨⟨%f0, %hf0, H0⟩, ⟨%f1, %hf1, H1⟩, ⟨%f2, %hf2, H2⟩⟩, Hk⟩
    sl_steps
    iapply Hk
    rw [hr0, hr1, hw2]
    isplitl [H0]
    · iexists f0; isplitr; · ipureintro; exact hf0
      iexact H0
    isplitl [H1]
    · iexists f1; isplitr; · ipureintro; exact hf1
      iexact H1
    · iexists k0_pay1 f0 f1; isplitr; · ipureintro; rw [hf0, hf1]
      iexact H2

end Cert.Kernel.Hand

end
-- ==== Proof.RunBits.lean ====
/-
  The body obligations and the runs, for any float instance.

  Two obligations are proved from the body's triple.  The exact one names what every buffer holds after
  the body; for the result's buffer at the last point this needs that the stored value, on the columns
  inside the array, does not depend on what x's buffer holds past the array's end (a hypothesis here: each
  column of the result is computed from one row of x).  The other one says nothing of the result's buffer
  and so needs nothing of the arithmetic; it is enough for "runs to the end, the inputs unchanged".
-/
import proofs.«134959_g24592982736908_cont_9to1_845_14_alg».proof.Proof.BodyBits
import Idealize.ShloMosaic.Lib.Pipeline.Cells

set_option maxRecDepth 16384

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The exact obligation -/

/-- The stored value on the columns inside the array does not depend on the rows of x's buffer past the
    array's end. -/
def ColumnLocal (c : Dev nD) : Prop :=
  ∀ (t : Fin cfg0.N) (d0 : S25600x128.Idx → Elt F .f32),
    win0_2.cut (grid0.coords t) (k0_pay1 (win0_0.fill (grid0.coords t) d0 (xrows m c t)) (ctab m c t))
      = win0_2.cut (grid0.coords t) (outblk m c t)

theorem body_obligation (c : Dev nD) (hloc : ColumnLocal m c) :
    BodyObligationLoose (dats m 0 c) (defs₀ (F := F)) 𝒱₀ () Set.univ := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩⟩
  rw [before_0 m c t d0, before_1 m c t d1, before_2 m c t d2]
  iapply (sound_body (F := F) c Set.univ (grid0.coords t) (cfg0.slots t 0) (cfg0.slots t 1) (cfg0.slots t 2)
    (win0_0.fill (grid0.coords t) d0 (xrows m c t)) (ctab m c t) d2 _)
  isplitl [H0 H1 H2]
  · isplitl [H0]
    · iexact H0
    isplitl [H1]
    · iexact H1
    · iexact H2
  iintro ⟨H0, H1, H2⟩
  isplitl [HΦ]; · iexact HΦ
  isplitl [Ho]; · iexact Ho
  have hx : win0_0.cut (grid0.coords t) (xfull m c t) = xrows m c t := win0_0.cut_fill _ _ _
  isplitl [H0]
  · iexists d0
    change _ ⊢ owns (c : Thread nD τ) (stage0_0 (cfg0.slots t 0)) fullShare
      (win0_0.fill (grid0.coords t) d0 (win0_0.cut (grid0.coords t) (xfull m c t)))
    rw [hx]; try iexact H0
  isplitl [H1]
  · iexact H1
  · iexists k0_pay1 (win0_0.fill (grid0.coords t) d0 (xrows m c t)) (ctab m c t)
    change _ ⊢ owns (c : Thread nD τ) (stage0_2 (cfg0.slots t 2)) fullShare
      (win0_2.fill (grid0.coords t) (k0_pay1 (win0_0.fill (grid0.coords t) d0 (xrows m c t)) (ctab m c t))
        (win0_2.cut (grid0.coords t) (outblk m c t)))
    rw [win0_2.fill_congr_cut (grid0.coords t) (hloc t d0)]; try iexact H2

/-! ## The obligation that says nothing of the result's buffer -/

/-- The windows whose buffers the second obligation does not describe: the result's. -/
def outOnly : Fin cfg0.W → Bool := fun w => match w with
  | ⟨0, _⟩ => false
  | ⟨1, _⟩ => false
  | ⟨2, _⟩ => true

theorem body_obligation_inputs (c : Dev nD) :
    BodyObligationLoose (dats m 0 c) (defs₀ (F := F)) 𝒱₀ () Set.univ outOnly := fun t => by
  rw [bigSep_W0, bigSep_W0]
  simp only [outOnly]
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩⟩
  rw [before_0 m c t d0, before_1 m c t d1]
  iapply (sound_body (F := F) c Set.univ (grid0.coords t) (cfg0.slots t 0) (cfg0.slots t 1) (cfg0.slots t 2)
    (win0_0.fill (grid0.coords t) d0 (xrows m c t)) (ctab m c t) d2 _)
  isplitl [H0 H1 H2]
  · isplitl [H0]
    · iexact H0
    isplitl [H1]
    · iexact H1
    · iexact H2
  iintro ⟨H0, H1, H2⟩
  isplitl [HΦ]; · iexact HΦ
  isplitl [Ho]; · iexact Ho
  have hx : win0_0.cut (grid0.coords t) (xfull m c t) = xrows m c t := win0_0.cut_fill _ _ _
  isplitl [H0]
  · iexists d0
    change _ ⊢ owns (c : Thread nD τ) (stage0_0 (cfg0.slots t 0)) fullShare
      (win0_0.fill (grid0.coords t) d0 (win0_0.cut (grid0.coords t) (xfull m c t)))
    rw [hx]; try iexact H0
  isplitl [H1]
  · iexact H1
  · iexists _; iexact H2

/-! ## The runs -/

set_option backward.isDefEq.respectTransparency.types false in
/-- With the exact obligation: every weakly fair execution of the program terminates, every array of the call ends at
    what the proof data computes, and every other buffer as the line after the call leaves it. -/
theorem run_main (hloc : ∀ c, ColumnLocal m c) :
    θ_run defs (onTc (τ := τ) (main (F := F))) (s₀ m ρ)
      (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => body_obligation m c (hloc c)) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := fun _ _ => rfl) (hΦ := fun _ _ => rfl)

/-- The line after the call writes the final result's buffer only. -/
theorem tail_writes : ∀ ops ∈ ([hostOps1] : List (List (HloOp τ sig (Elt F)))), ∀ op ∈ ops, ∀ b : Ref sig .tc,
    Proc.devRef .tc b ∈ op.writes → b ∈ ({main_v1} : Finset (Ref sig .tc)) := by
  intro ops hops op hop b hb
  simp only [List.mem_cons, List.mem_nil_iff, or_false] at hops
  rcases hops with rfl
  simp only [hostOps1, List.mem_cons, List.mem_nil_iff, or_false] at hop
  rcases hop with rfl
  rw [StableHlo.unary_writes, Finset.mem_singleton] at hb
  exact Finset.mem_singleton.mpr (Proc.devRef_injective _ hb)

set_option backward.isDefEq.respectTransparency.types false in
/-- With the obligation that says nothing of the result's buffer: the program still terminates without a fault, and
    the input arrays, which no write-back touches, end as they began. -/
theorem run_inputs :
    θ_run defs (onTc (τ := τ) (main (F := F))) (s₀ m ρ)
      (RDat.FramePostR cfg0 (fun c => (dats m 0 c).toRForget outOnly) {main_v1} (fun c b => V0 m c (Proc.devRef .tc b))) :=
  Pipeline.RDat.θ_run_frame_around_T cfgs (0 : Fin 1) launch0 defs₀ Variants.none (fun c => (dats m 0 c).toRForget outOnly)
    {main_v1} m ρ main
    (hbody := fun c => (body_obligation_inputs m c).toRForget)
    (hshare := fun c w => (dats m 0 c).share_full (fun _ => rfl) w)
    (howed := fun _ _ => rfl) (V₀ := V0 m) (opss := [hostOps1]) (hsub := sfx_sub) (hfresh := sfx_fresh) (hkeep := sfx_keeps)
    (hT := tail_writes)
    (hmain := hmain m Variants.none) (hA := fun _ _ => rfl) (hΦ := fun _ _ => rfl)

/-- The program runs to the end without a fault and leaves its two argument arrays unchanged. -/
theorem frame_inputs :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(((dats m 0 c).toRForget_arrAt_iff (fgt := outOnly) (w := (0 : Fin 3)) rfl _ _).mp ((h c).1 0)).trans
        (((dats m 0 c).arrAt_in 0 rfl _).trans (V_main_arg0 m c)),
      (((dats m 0 c).toRForget_arrAt_iff (fgt := outOnly) (w := (1 : Fin 3)) rfl _ _).mp ((h c).1 1)).trans
        (((dats m 0 c).arrAt_in 1 rfl _).trans (V_main_arg1 m c))⟩) (run_inputs m ρ)

end Cert.Kernel.Hand

end
-- ==== Proof.Body.lean ====
/-
  The pipeline's proof data and the kernel body's triple, for any float instance.

  The call streams x in four blocks of 25600 rows (the last one reaches 2400 rows past the array's end)
  against the whole 16 x 128 table of centers, and writes a 16 x 25600 block of the transposed result per
  point.  What the staging buffers hold after the body: x's block (past the array's end a filler nothing
  reads), the centers, and the body's one stored value computed from those two.  The body itself is two
  whole loads, one dead load of the result buffer and one whole store: the result buffer ends holding the
  stored value of whatever the two input buffers hold.
-/
import proofs.«134959_g24592982736908_cont_9to1_845_14_alg».proof.Proof.Gen.KernelIdeal.Skeleton
import proofs.«134959_g24592982736908_cont_9to1_845_14_alg».proof.Proof.Gen.KernelIdeal.Launch
import proofs.«134959_g24592982736908_cont_9to1_845_14_alg».proof.Proof.Gen.KernelIdeal.Points
import proofs.«134959_g24592982736908_cont_9to1_845_14_alg».proof.Proof.Gen.KernelIdeal.Frame
import Idealize.ShloMosaic.Lib.Pipeline.Kit
import Idealize.ShloMosaic.Lib.Tactic

set_option maxRecDepth 16384

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The rows of x the fetch at point `t` reads: the block's part inside the array. -/
def xrows (c : Dev nD) (t : Fin cfg0.N) : (win0_0.xblock (grid0.coords t)).Idx → Elt F .f32 :=
  iblk m c 0 t

/-- The table of centers, the same block at every point. -/
def ctab (c : Dev nD) (t : Fin cfg0.N) : S16x128.Idx → Elt F .f32 :=
  iblk m c 1 t

/-- x's block at point `t` as a full 25600-row block: the rows inside the array, and the zero word on the
    rows past its end. -/
def xfull (c : Dev nD) (t : Fin cfg0.N) : S25600x128.Idx → Elt F .f32 :=
  win0_0.fill (grid0.coords t) (fun _ => Scalar.ofBits .f32 0#32) (xrows m c t)

/-- The block the body stores at point `t`: the stored value of x's full block and the table. -/
def outblk (c : Dev nD) (t : Fin cfg0.N) : S16x25600.Idx → Elt F .f32 :=
  k0_pay1 (xfull m c t) (ctab m c t)

/-- The proof data on device `c`: the arrays as the region finds them; after the body, x's buffer at its
    block, the centers' buffer at the table, the result's buffer at the stored value of those two. -/
def dats (_ : Fin 1) (c : Dev nD) : Dat τ (Elt F) Unit ℕ (UR sig nD τ) ℕ cfg0 c where
  A w := V m c (Pipeline.arrRef spec0 w)
  after w t := match w with
    | ⟨0, _⟩ => xfull m c t
    | ⟨1, _⟩ => ctab m c t
    | ⟨2, _⟩ => outblk m c t
  Φ _ := Pipeline.ΦA spec0 c
  q _ := fullShare
  owed _ := 0

/-- The result's window is never fetched. -/
theorem fetch0_2 : ∀ t : Fin cfg0.N, (cfg0.win 2).fetch t = false :=
  (by decide +kernel : ∀ t : Fin grid0.N, win0_2.fetch t = false)

/-- What the body finds in x's buffer: the rows inside the array just fetched, anything past them. -/
theorem before_0 (c : Dev nD) (t : Fin cfg0.N) (d) :
    (dats m 0 c).before (0 : Fin 3) t d = win0_0.fill (grid0.coords t) d (xrows m c t) := by
  unfold Dat.before; rw [if_pos (fetch0_0 t)]; rfl

/-- In the centers' buffer: the table, fetched at the first point and kept. -/
theorem before_1 (c : Dev nD) (t : Fin cfg0.N) (d) : (dats m 0 c).before (1 : Fin 3) t d = ctab m c t :=
  before0_1_of m (dats m 0 c) rfl (fun _ => rfl) t d

/-- In the result's buffer: contents nothing names (every point writes its block back). -/
theorem before_2 (c : Dev nD) (t : Fin cfg0.N) (d) : (dats m 0 c).before (2 : Fin 3) t d = d := by
  unfold Dat.before
  rw [if_neg (by rw [fetch0_2 t]; exact Bool.false_ne_true)]
  by_cases h0 : t.val = 0
  · rw [if_pos h0]
  · rw [if_neg h0]; exact if_pos (flush0_2 _)

/-! ## The body -/

/-- The kernel's variants: none. -/
abbrev 𝒱₀ : Variants := Variants.none

/-- The body on staging buffers `s0` of x's window, the centers' one buffer and `s2` of the result's: both
    inputs are left as found and the result's buffer ends at the stored value of what they hold. -/
theorem sound_body (c : Dev nD) (E : Set ℕ) (i : grid0.Coords) (s0 : Fin 2) (s1 : Fin 1) (s2 : Fin 2)
    (X0 : S25600x128.Idx → Elt F .f32) (X1 : S16x128.Idx → Elt F .f32) (X2 : S16x25600.Idx → Elt F .f32)
    (K : PUnit → sProp 𝕄) :
    iprop((owns (c : Thread nD τ) (stage0_0 s0) fullShare X0 ∗ owns (c : Thread nD τ) (stage0_1 s1) fullShare X1
            ∗ owns (c : Thread nD τ) (stage0_2 s2) fullShare X2)
          ∗ (iprop(owns (c : Thread nD τ) (stage0_0 s0) fullShare X0 ∗ owns (c : Thread nD τ) (stage0_1 s1) fullShare X1
                  ∗ owns (c : Thread nD τ) (stage0_2 s2) fullShare (k0_pay1 X0 X1)) -∗ K ⟨⟩))
      ⊢ wp frame (wpE (defs₀ (F := F)) 𝒱₀ c none) E
          (cc0__body i (stage0_0 s0) (hstage0_0 s0) (stage0_1 s1) (hstage0_1 s1) (stage0_2 s2) (hstage0_2 s2)) K := by
  have hz : (![0, 0] : Fin 2 → Nat) = fun _ => 0 := funext fun a => by fin_cases a <;> rfl
  fin_cases s0 <;> fin_cases s1 <;> fin_cases s2
  · have hr0 : (Memref.whole cc0_stg0_0 : Memref sig .tc _ _ _).view.readAt (Elt F) (Rect.unit (s := S25600x128) ![0, 0] S25600x128.size
        inb_S25600x128_S25600x128_0_0).toLoadRect = id := funext (Memref.readAt_unit_zero (Elt F) cc0_stg0_0 hz _)
    have hr1 : (Memref.whole cc0_stg1_0 : Memref sig .tc _ _ _).view.readAt (Elt F) (Rect.unit (s := S16x128) ![0, 0] S16x128.size
        inb_S16x128_S16x128_0_0).toLoadRect = id := funext (Memref.readAt_unit_zero (Elt F) cc0_stg1_0 hz _)
    have hw2 : ∀ f w, (((Memref.whole cc0_stg2_0).access (Rect.unit (s := S16x25600) ![0, 0] S16x25600.size inb_S16x25600_S16x25600_0_0)) :
        View sig .tc _ _ _).write (Elt F) f w Finset.univ = w := Memref.write_access_unit_zero_univ (Elt F) cc0_stg2_0 hz _
    simp only [owns_whole_eq, cc0__body_eq_skeleton]; unfold cc0__body_skel
    simp only [Prog.lift, Prog.bind_op, Prog.bind_ret]
    iintro ⟨⟨⟨%f0, %hf0, H0⟩, ⟨%f1, %hf1, H1⟩, ⟨%f2, %hf2, H2⟩⟩, Hk⟩
    sl_steps
    iapply Hk
    rw [hr0, hr1, hw2]
    isplitl [H0]
    · iexists f0; isplitr; · ipureintro; exact hf0
      iexact H0
    isplitl [H1]
    · iexists f1; isplitr; · ipureintro; exact hf1
      iexact H1
    · iexists k0_pay1 f0 f1; isplitr; · ipureintro; rw [hf0, hf1]
      iexact H2
  · have hr0 : (Memref.whole cc0_stg0_0 : Memref sig .tc _ _ _).view.readAt (Elt F) (Rect.unit (s := S25600x128) ![0, 0] S25600x128.size
        inb_S25600x128_S25600x128_0_0).toLoadRect = id := funext (Memref.readAt_unit_zero (Elt F) cc0_stg0_0 hz _)
    have hr1 : (Memref.whole cc0_stg1_0 : Memref sig .tc _ _ _).view.readAt (Elt F) (Rect.unit (s := S16x128) ![0, 0] S16x128.size
        inb_S16x128_S16x128_0_0).toLoadRect = id := funext (Memref.readAt_unit_zero (Elt F) cc0_stg1_0 hz _)
    have hw2 : ∀ f w, (((Memref.whole cc0_stg2_1).access (Rect.unit (s := S16x25600) ![0, 0] S16x25600.size inb_S16x25600_S16x25600_0_0)) :
        View sig .tc _ _ _).write (Elt F) f w Finset.univ = w := Memref.write_access_unit_zero_univ (Elt F) cc0_stg2_1 hz _
    simp only [owns_whole_eq, cc0__body_eq_skeleton]; unfold cc0__body_skel
    simp only [Prog.lift, Prog.bind_op, Prog.bind_ret]
    iintro ⟨⟨⟨%f0, %hf0, H0⟩, ⟨%f1, %hf1, H1⟩, ⟨%f2, %hf2, H2⟩⟩, Hk⟩
    sl_steps
    iapply Hk
    rw [hr0, hr1, hw2]
    isplitl [H0]
    · iexists f0; isplitr; · ipureintro; exact hf0
      iexact H0
    isplitl [H1]
    · iexists f1; isplitr; · ipureintro; exact hf1
      iexact H1
    · iexists k0_pay1 f0 f1; isplitr; · ipureintro; rw [hf0, hf1]
      iexact H2
  · have hr0 : (Memref.whole cc0_stg0_1 : Memref sig .tc _ _ _).view.readAt (Elt F) (Rect.unit (s := S25600x128) ![0, 0] S25600x128.size
        inb_S25600x128_S25600x128_0_0).toLoadRect = id := funext (Memref.readAt_unit_zero (Elt F) cc0_stg0_1 hz _)
    have hr1 : (Memref.whole cc0_stg1_0 : Memref sig .tc _ _ _).view.readAt (Elt F) (Rect.unit (s := S16x128) ![0, 0] S16x128.size
        inb_S16x128_S16x128_0_0).toLoadRect = id := funext (Memref.readAt_unit_zero (Elt F) cc0_stg1_0 hz _)
    have hw2 : ∀ f w, (((Memref.whole cc0_stg2_0).access (Rect.unit (s := S16x25600) ![0, 0] S16x25600.size inb_S16x25600_S16x25600_0_0)) :
        View sig .tc _ _ _).write (Elt F) f w Finset.univ = w := Memref.write_access_unit_zero_univ (Elt F) cc0_stg2_0 hz _
    simp only [owns_whole_eq, cc0__body_eq_skeleton]; unfold cc0__body_skel
    simp only [Prog.lift, Prog.bind_op, Prog.bind_ret]
    iintro ⟨⟨⟨%f0, %hf0, H0⟩, ⟨%f1, %hf1, H1⟩, ⟨%f2, %hf2, H2⟩⟩, Hk⟩
    sl_steps
    iapply Hk
    rw [hr0, hr1, hw2]
    isplitl [H0]
    · iexists f0; isplitr; · ipureintro; exact hf0
      iexact H0
    isplitl [H1]
    · iexists f1; isplitr; · ipureintro; exact hf1
      iexact H1
    · iexists k0_pay1 f0 f1; isplitr; · ipureintro; rw [hf0, hf1]
      iexact H2
  · have hr0 : (Memref.whole cc0_stg0_1 : Memref sig .tc _ _ _).view.readAt (Elt F) (Rect.unit (s := S25600x128) ![0, 0] S25600x128.size
        inb_S25600x128_S25600x128_0_0).toLoadRect = id := funext (Memref.readAt_unit_zero (Elt F) cc0_stg0_1 hz _)
    have hr1 : (Memref.whole cc0_stg1_0 : Memref sig .tc _ _ _).view.readAt (Elt F) (Rect.unit (s := S16x128) ![0, 0] S16x128.size
        inb_S16x128_S16x128_0_0).toLoadRect = id := funext (Memref.readAt_unit_zero (Elt F) cc0_stg1_0 hz _)
    have hw2 : ∀ f w, (((Memref.whole cc0_stg2_1).access (Rect.unit (s := S16x25600) ![0, 0] S16x25600.size inb_S16x25600_S16x25600_0_0)) :
        View sig .tc _ _ _).write (Elt F) f w Finset.univ = w := Memref.write_access_unit_zero_univ (Elt F) cc0_stg2_1 hz _
    simp only [owns_whole_eq, cc0__body_eq_skeleton]; unfold cc0__body_skel
    simp only [Prog.lift, Prog.bind_op, Prog.bind_ret]
    iintro ⟨⟨⟨%f0, %hf0, H0⟩, ⟨%f1, %hf1, H1⟩, ⟨%f2, %hf2, H2⟩⟩, Hk⟩
    sl_steps
    iapply Hk
    rw [hr0, hr1, hw2]
    isplitl [H0]
    · iexists f0; isplitr; · ipureintro; exact hf0
      iexact H0
    isplitl [H1]
    · iexists f1; isplitr; · ipureintro; exact hf1
      iexact H1
    · iexists k0_pay1 f0 f1; isplitr; · ipureintro; rw [hf0, hf1]
      iexact H2

end Cert.KernelIdeal.Hand

end
-- ==== Proof.Run.lean ====
/-
  The body obligations and the runs, for any float instance.

  Two obligations are proved from the body's triple.  The exact one names what every buffer holds after
  the body; for the result's buffer at the last point this needs that the stored value, on the columns
  inside the array, does not depend on what x's buffer holds past the array's end (a hypothesis here: each
  column of the result is computed from one row of x).  The other one says nothing of the result's buffer
  and so needs nothing of the arithmetic; it is enough for "runs to the end, the inputs unchanged".
-/
import proofs.«134959_g24592982736908_cont_9to1_845_14_alg».proof.Proof.Body
import Idealize.ShloMosaic.Lib.Pipeline.Cells

set_option maxRecDepth 16384

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The exact obligation -/

/-- The stored value on the columns inside the array does not depend on the rows of x's buffer past the
    array's end. -/
def ColumnLocal (c : Dev nD) : Prop :=
  ∀ (t : Fin cfg0.N) (d0 : S25600x128.Idx → Elt F .f32),
    win0_2.cut (grid0.coords t) (k0_pay1 (win0_0.fill (grid0.coords t) d0 (xrows m c t)) (ctab m c t))
      = win0_2.cut (grid0.coords t) (outblk m c t)

theorem body_obligation (c : Dev nD) (hloc : ColumnLocal m c) :
    BodyObligationLoose (dats m 0 c) (defs₀ (F := F)) 𝒱₀ () Set.univ := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩⟩
  rw [before_0 m c t d0, before_1 m c t d1, before_2 m c t d2]
  iapply (sound_body (F := F) c Set.univ (grid0.coords t) (cfg0.slots t 0) (cfg0.slots t 1) (cfg0.slots t 2)
    (win0_0.fill (grid0.coords t) d0 (xrows m c t)) (ctab m c t) d2 _)
  isplitl [H0 H1 H2]
  · isplitl [H0]
    · iexact H0
    isplitl [H1]
    · iexact H1
    · iexact H2
  iintro ⟨H0, H1, H2⟩
  isplitl [HΦ]; · iexact HΦ
  isplitl [Ho]; · iexact Ho
  have hx : win0_0.cut (grid0.coords t) (xfull m c t) = xrows m c t := win0_0.cut_fill _ _ _
  isplitl [H0]
  · iexists d0
    change _ ⊢ owns (c : Thread nD τ) (stage0_0 (cfg0.slots t 0)) fullShare
      (win0_0.fill (grid0.coords t) d0 (win0_0.cut (grid0.coords t) (xfull m c t)))
    rw [hx]; try iexact H0
  isplitl [H1]
  · iexact H1
  · iexists k0_pay1 (win0_0.fill (grid0.coords t) d0 (xrows m c t)) (ctab m c t)
    change _ ⊢ owns (c : Thread nD τ) (stage0_2 (cfg0.slots t 2)) fullShare
      (win0_2.fill (grid0.coords t) (k0_pay1 (win0_0.fill (grid0.coords t) d0 (xrows m c t)) (ctab m c t))
        (win0_2.cut (grid0.coords t) (outblk m c t)))
    rw [win0_2.fill_congr_cut (grid0.coords t) (hloc t d0)]; try iexact H2

/-! ## The obligation that says nothing of the result's buffer -/

/-- The windows whose buffers the second obligation does not describe: the result's. -/
def outOnly : Fin cfg0.W → Bool := fun w => match w with
  | ⟨0, _⟩ => false
  | ⟨1, _⟩ => false
  | ⟨2, _⟩ => true

theorem body_obligation_inputs (c : Dev nD) :
    BodyObligationLoose (dats m 0 c) (defs₀ (F := F)) 𝒱₀ () Set.univ outOnly := fun t => by
  rw [bigSep_W0, bigSep_W0]
  simp only [outOnly]
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩⟩
  rw [before_0 m c t d0, before_1 m c t d1]
  iapply (sound_body (F := F) c Set.univ (grid0.coords t) (cfg0.slots t 0) (cfg0.slots t 1) (cfg0.slots t 2)
    (win0_0.fill (grid0.coords t) d0 (xrows m c t)) (ctab m c t) d2 _)
  isplitl [H0 H1 H2]
  · isplitl [H0]
    · iexact H0
    isplitl [H1]
    · iexact H1
    · iexact H2
  iintro ⟨H0, H1, H2⟩
  isplitl [HΦ]; · iexact HΦ
  isplitl [Ho]; · iexact Ho
  have hx : win0_0.cut (grid0.coords t) (xfull m c t) = xrows m c t := win0_0.cut_fill _ _ _
  isplitl [H0]
  · iexists d0
    change _ ⊢ owns (c : Thread nD τ) (stage0_0 (cfg0.slots t 0)) fullShare
      (win0_0.fill (grid0.coords t) d0 (win0_0.cut (grid0.coords t) (xfull m c t)))
    rw [hx]; try iexact H0
  isplitl [H1]
  · iexact H1
  · iexists _; iexact H2

/-! ## The runs -/

set_option backward.isDefEq.respectTransparency.types false in
/-- With the exact obligation: every weakly fair execution of the program terminates, every array of the call ends at
    what the proof data computes, and every other buffer as the line after the call leaves it. -/
theorem run_main (hloc : ∀ c, ColumnLocal m c) :
    θ_run defs (onTc (τ := τ) (main (F := F))) (s₀ m ρ)
      (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => body_obligation m c (hloc c)) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := fun _ _ => rfl) (hΦ := fun _ _ => rfl)

/-- The line after the call writes the final result's buffer only. -/
theorem tail_writes : ∀ ops ∈ ([hostOps1] : List (List (HloOp τ sig (Elt F)))), ∀ op ∈ ops, ∀ b : Ref sig .tc,
    Proc.devRef .tc b ∈ op.writes → b ∈ ({main_v1} : Finset (Ref sig .tc)) := by
  intro ops hops op hop b hb
  simp only [List.mem_cons, List.mem_nil_iff, or_false] at hops
  rcases hops with rfl
  simp only [hostOps1, List.mem_cons, List.mem_nil_iff, or_false] at hop
  rcases hop with rfl
  rw [StableHlo.unary_writes, Finset.mem_singleton] at hb
  exact Finset.mem_singleton.mpr (Proc.devRef_injective _ hb)

set_option backward.isDefEq.respectTransparency.types false in
/-- With the obligation that says nothing of the result's buffer: the program still terminates without a fault, and
    the input arrays, which no write-back touches, end as they began. -/
theorem run_inputs :
    θ_run defs (onTc (τ := τ) (main (F := F))) (s₀ m ρ)
      (RDat.FramePostR cfg0 (fun c => (dats m 0 c).toRForget outOnly) {main_v1} (fun c b => V0 m c (Proc.devRef .tc b))) :=
  Pipeline.RDat.θ_run_frame_around_T cfgs (0 : Fin 1) launch0 defs₀ Variants.none (fun c => (dats m 0 c).toRForget outOnly)
    {main_v1} m ρ main
    (hbody := fun c => (body_obligation_inputs m c).toRForget)
    (hshare := fun c w => (dats m 0 c).share_full (fun _ => rfl) w)
    (howed := fun _ _ => rfl) (V₀ := V0 m) (opss := [hostOps1]) (hsub := sfx_sub) (hfresh := sfx_fresh) (hkeep := sfx_keeps)
    (hT := tail_writes)
    (hmain := hmain m Variants.none) (hA := fun _ _ => rfl) (hΦ := fun _ _ => rfl)

/-- The program runs to the end without a fault and leaves its two argument arrays unchanged. -/
theorem frame_inputs :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(((dats m 0 c).toRForget_arrAt_iff (fgt := outOnly) (w := (0 : Fin 3)) rfl _ _).mp ((h c).1 0)).trans
        (((dats m 0 c).arrAt_in 0 rfl _).trans (V_main_arg0 m c)),
      (((dats m 0 c).toRForget_arrAt_iff (fgt := outOnly) (w := (1 : Fin 3)) rfl _ _).mp ((h c).1 1)).trans
        (((dats m 0 c).arrAt_in 1 rfl _).trans (V_main_arg1 m c))⟩) (run_inputs m ρ)

end Cert.KernelIdeal.Hand

end
-- ==== Proof.LibSoftAssign.lean ====
/-
  The soft cluster assignment of one point, over the extended reals, in two spellings, and their
  agreement on real data.

  For a point x and centers C_k the squared distance is taken by expansion,
  d_k = max(|x|^2 + |C_k|^2 - 2 <C_k, x>, 0), the Student-t weight is w_k = 1 / (1 + d_k), and the
  assignment is w_k normalised by the sum of the weights.  One spelling multiplies w_k by the reciprocal of
  the sum; the other writes the weight as the power (1 + d_k / 1) ^ (-1), starts each sum at zero and
  divides by the sum.  On real data all the quantities are real, 1 + d_k >= 1 and the sum of the weights is
  positive, so the two are the same real number.  (On infinite data they can differ: if every distance is
  +infinity every weight is 0, and 0 divided by 0 is not 0 times the reciprocal of 0.)
-/
import Mathlib.Analysis.SpecialFunctions.Pow.Real
import Mathlib.Data.EReal.Basic
import Idealize.ShloMosaic.PureOps.Ideal

noncomputable section

namespace Cert.SoftAssign

open Idealize.ShloMosaic

variable {ι κ : Type} [Fintype ι] [Fintype κ]

/-! ## The two spellings -/

/-- The squared norm of a row. -/
def sqn (v : ι → EReal) : EReal := ∑ d, v d * v d
/-- The dotp product of two rows. -/
def dotp (a b : ι → EReal) : EReal := ∑ d, a d * b d

/-- The clamped squared distance, by expansion. -/
def sqdist (x c : ι → EReal) : EReal :=
  max (sqn x + sqn c - ((2 : ℝ) : EReal) * dotp c x) ((0 : ℝ) : EReal)
/-- The weight as a reciprocal. -/
def wgt (x c : ι → EReal) : EReal := Ideal.div ((1 : ℝ) : EReal) (((1 : ℝ) : EReal) + sqdist x c)
/-- The assignment: the weight times the reciprocal of the sum of the weights. -/
def assign (x : ι → EReal) (C : κ → ι → EReal) (k : κ) : EReal :=
  wgt x (C k) * Ideal.div ((1 : ℝ) : EReal) (∑ j, wgt x (C j))

/-- The same distance with each sum started at zero and the dotp product the other way round. -/
def sqdist' (x c : ι → EReal) : EReal :=
  max (((((0 : ℝ) : EReal) + sqn x) + (((0 : ℝ) : EReal) + sqn c)) - ((2 : ℝ) : EReal) * dotp x c) ((0 : ℝ) : EReal)
/-- The weight as a power with exponent minus one. -/
def wgt' (x c : ι → EReal) : EReal :=
  Ideal.pow (((1 : ℝ) : EReal) + Ideal.div (sqdist' x c) ((1 : ℝ) : EReal)) ((-1 : ℝ) : EReal)
/-- The assignment: the weight divided by the sum of the weights, the sum started at zero. -/
def assign' (x : ι → EReal) (C : κ → ι → EReal) (k : κ) : EReal :=
  Ideal.div (wgt' x (C k)) (((0 : ℝ) : EReal) + ∑ j, wgt' x (C j))

/-! ## On real data -/

/-- A finite sum of reals, taken in the extended reals, is the real sum. -/
theorem coe_sum {α : Type} (s : Finset α) (f : α → ℝ) :
    ∑ i ∈ s, ((f i : ℝ) : EReal) = ((∑ i ∈ s, f i : ℝ) : EReal) := by
  classical
  refine Finset.induction_on s (by simp) ?_
  intro a s ha ih
  rw [Finset.sum_insert ha, Finset.sum_insert ha, ih, EReal.coe_add]

/-- The larger of two reals, taken in the extended reals. -/
theorem coe_max (a b : ℝ) : max (a : EReal) (b : EReal) = ((max a b : ℝ) : EReal) :=
  (EReal.coe_strictMono.monotone.map_max).symm

/-- The real clamped squared distance. -/
def distR (x c : ι → ℝ) : ℝ := max ((∑ d, x d * x d) + (∑ d, c d * c d) - 2 * ∑ d, c d * x d) 0
/-- The real weight. -/
def wR (x c : ι → ℝ) : ℝ := 1 / (1 + distR x c)

theorem distR_nonneg (x c : ι → ℝ) : 0 ≤ distR x c := le_max_right _ _
theorem one_add_distR_pos (x c : ι → ℝ) : 0 < 1 + distR x c := by have := distR_nonneg x c; linarith
theorem wR_pos (x c : ι → ℝ) : 0 < wR x c := one_div_pos.mpr (one_add_distR_pos x c)

theorem sqn_coe (x : ι → ℝ) : sqn (fun d => ((x d : ℝ) : EReal)) = ((∑ d, x d * x d : ℝ) : EReal) := by
  unfold sqn; simp only [← EReal.coe_mul]; exact coe_sum _ _

theorem dotp_coe (a b : ι → ℝ) :
    dotp (fun d => ((a d : ℝ) : EReal)) (fun d => ((b d : ℝ) : EReal)) = ((∑ d, a d * b d : ℝ) : EReal) := by
  unfold dotp; simp only [← EReal.coe_mul]; exact coe_sum _ _

theorem sqdist_coe (x c : ι → ℝ) :
    sqdist (fun d => ((x d : ℝ) : EReal)) (fun d => ((c d : ℝ) : EReal)) = ((distR x c : ℝ) : EReal) := by
  unfold sqdist distR
  rw [sqn_coe, sqn_coe, dotp_coe, ← EReal.coe_mul, ← EReal.coe_add, ← EReal.coe_sub, coe_max]

theorem sqdist'_coe (x c : ι → ℝ) :
    sqdist' (fun d => ((x d : ℝ) : EReal)) (fun d => ((c d : ℝ) : EReal)) = ((distR x c : ℝ) : EReal) := by
  unfold sqdist' distR
  rw [sqn_coe, sqn_coe, dotp_coe, ← EReal.coe_add, ← EReal.coe_add, ← EReal.coe_add, ← EReal.coe_mul, ← EReal.coe_sub,
    coe_max, zero_add, zero_add]
  simp only [mul_comm]

theorem wgt_coe (x c : ι → ℝ) :
    wgt (fun d => ((x d : ℝ) : EReal)) (fun d => ((c d : ℝ) : EReal)) = ((wR x c : ℝ) : EReal) := by
  unfold wgt wR
  rw [sqdist_coe, ← EReal.coe_add, Ideal.div_coe (one_add_distR_pos x c).ne', ← EReal.coe_mul, one_mul]

theorem wgt'_coe (x c : ι → ℝ) :
    wgt' (fun d => ((x d : ℝ) : EReal)) (fun d => ((c d : ℝ) : EReal)) = ((wR x c : ℝ) : EReal) := by
  unfold wgt' wR
  rw [sqdist'_coe, Ideal.div_coe one_ne_zero, ← EReal.coe_mul, ← EReal.coe_add, Ideal.pow_coe_coe]
  congr 1
  rw [div_one, mul_one, Real.rpow_eq_pow, Real.rpow_neg_one, one_div]

variable [Nonempty κ]

theorem sum_wR_pos (x : ι → ℝ) (C : κ → ι → ℝ) : 0 < ∑ j, wR x (C j) :=
  Finset.sum_pos (fun j _ => wR_pos x (C j)) Finset.univ_nonempty

/-- On real data the first spelling is the real quotient. -/
theorem assign_coe (x : ι → ℝ) (C : κ → ι → ℝ) (k : κ) :
    assign (fun d => ((x d : ℝ) : EReal)) (fun j d => ((C j d : ℝ) : EReal)) k
      = ((wR x (C k) * (1 / ∑ j, wR x (C j)) : ℝ) : EReal) := by
  unfold assign
  simp only [wgt_coe]
  rw [coe_sum, Ideal.div_coe (sum_wR_pos x C).ne', ← EReal.coe_mul, one_mul, ← EReal.coe_mul]

/-- On real data so is the second. -/
theorem assign'_coe (x : ι → ℝ) (C : κ → ι → ℝ) (k : κ) :
    assign' (fun d => ((x d : ℝ) : EReal)) (fun j d => ((C j d : ℝ) : EReal)) k
      = ((wR x (C k) * (1 / ∑ j, wR x (C j)) : ℝ) : EReal) := by
  unfold assign'
  simp only [wgt'_coe]
  rw [coe_sum, ← EReal.coe_add, zero_add, Ideal.div_coe (sum_wR_pos x C).ne', ← EReal.coe_mul]

/-- The two spellings agree on real data. -/
theorem assign'_eq_assign (x : ι → ℝ) (C : κ → ι → ℝ) (k : κ) :
    assign' (fun d => ((x d : ℝ) : EReal)) (fun j d => ((C j d : ℝ) : EReal)) k
      = assign (fun d => ((x d : ℝ) : EReal)) (fun j d => ((C j d : ℝ) : EReal)) k :=
  (assign'_coe x C k).trans (assign_coe x C k).symm

end Cert.SoftAssign

end
-- ==== Proof.LibLits.lean ====
/-
  Four single-precision float literals as the extended reals their bit patterns denote: 0.0, 1.0, 2.0 and -1.0.
  Each pattern is a sign, an exponent and a zero mantissa, so its value is a signed power of two.
-/
import Idealize.ShloMosaic.PureOps.Ideal
import Idealize.ShloMosaic.PureOps.Ideal.Laws

noncomputable section

namespace Cert.Lits

open Idealize.ShloMosaic

/-- The pattern of `1.0` denotes the real one. -/
theorem one : Ideal.ofBits .f32 0x3F800000#32 = ((1 : ℝ) : EReal) := by
  simp [Ideal.ofBits, Ideal.ieee, -EReal.coe_mul]; norm_num

/-- The pattern of `2.0` denotes the real two. -/
theorem two : Ideal.ofBits .f32 0x40000000#32 = ((2 : ℝ) : EReal) := by
  simp [Ideal.ofBits, Ideal.ieee, -EReal.coe_mul]; norm_num

/-- The pattern of `-1.0` denotes the real minus one. -/
theorem negOne : Ideal.ofBits .f32 0xBF800000#32 = ((-1 : ℝ) : EReal) := by
  simp [Ideal.ofBits, Ideal.ieee, -EReal.coe_mul]; norm_num

/-- The zero pattern denotes zero. -/
theorem zero : Ideal.ofBits .f32 0x00000000#32 = ((0 : ℝ) : EReal) := by
  rw [Ideal.ofBits_zero_f32]; rfl

end Cert.Lits

end
-- ==== Proof.LibRowOps.lean ====
/-
  Row-wise reductions with `keepdims`, read at an index: a length-`a` vector viewed as an `[a, 1]` column, a column
  broadcast along its rows to `[a, b]`, and a reduction over the second axis of an `[a, b]` array read at row `r` — the
  index the reduction inserts the dropped coordinate into is (r, k), so a row maximum is the fold of `max` over the row's
  entries and a row sum is the sum over them.
-/
import Idealize.ShloMosaic.Lib.Pipeline.Value
import Idealize.ShloMosaic.Lib.ValueIdx
import Idealize.ShloMosaic.PureOps.Ideal.Laws

noncomputable section

namespace RowOps

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The reduced index `r` with the second-axis coordinate `k` put back is (r, k). -/
theorem lift_row {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext c; apply Fin.ext
  fin_cases c <;> rfl

/-- A maximum over the second axis, at row `r`: the fold of `max`, from the accumulator's value, over the row. -/
theorem rowMax_apply {a b : ℕ} (src : FVec Ideal ⟨2, ![a, b]⟩ .f32) (acc : BitVec 32)
    (h : (⟨2, ![a, b]⟩ : Shape).Reduces [1] (⟨1, ![a]⟩ : Shape)) (hφ : FKind.Formats .f32)
    (hacc : acc = FKind.maximumf.neutral .f32 hφ) (r : Fin a) :
    multiReduction .maximumf [1] ⟨1, ![a]⟩ src acc h hφ hacc (ix1 r)
      = (Finset.univ : Finset (Fin b)).fold max (Ideal.ofBits .f32 acc) (fun k => src (ix2 r k)) := by
  refine (Ideal.multiReduction_maximumf_single src acc h hφ hacc (ix1 r)).trans ?_
  have hf : (src ∘ h.lift (ix1 r)) = fun k : Fin b => src (ix2 r k) := funext fun k => congrArg src (lift_row h r k)
  exact congrArg (fun f => Finset.fold max (Ideal.ofBits .f32 acc) f (Finset.univ : Finset (Fin b))) hf

/-- A sum over the second axis, at row `r`: the sum over the row. -/
theorem rowSum_apply {a b : ℕ} (src : FVec Ideal ⟨2, ![a, b]⟩ .f32) (acc : BitVec 32)
    (h : (⟨2, ![a, b]⟩ : Shape).Reduces [1] (⟨1, ![a]⟩ : Shape)) (hφ : FKind.Formats .f32)
    (hacc : acc = FKind.add.neutral .f32 hφ) (r : Fin a) :
    multiReduction .add [1] ⟨1, ![a]⟩ src acc h hφ hacc (ix1 r) = ∑ k : Fin b, src (ix2 r k) := by
  refine (Ideal.multiReduction_add_single src acc h hφ hacc (ix1 r)).trans ?_
  exact Finset.sum_congr rfl fun k _ => congrArg src (lift_row h r k)

end RowOps

end
-- ==== Proof.LibColReduce.lean ====
/-
  Reductions DOWN the rows of a matrix, and a single cell spread over a column, read at an index: a reduction over the
  first axis of an `[a, b]` array, read at column `u`, puts the dropped coordinate back as the row, so a column
  maximum is the fold of `max` over the column's entries and a column sum is the sum over them; a `[1, 1]` cell
  broadcast to an `[a, 1]` column reads the cell at every row.
-/
import Idealize.ShloMosaic.Lib.Pipeline.Value
import Idealize.ShloMosaic.Lib.ValueIdx
import Idealize.ShloMosaic.PureOps.Ideal.Laws

noncomputable section

namespace ColReduce

open Idealize.ShloMosaic Idealize.ShloMosaic.ValueIdx

variable {α : Type}

/-- The reduced index `u` with the first-axis coordinate `k` put back is (k, u). -/
theorem lift_col {a b : ℕ} (h : (⟨2, ![a, b]⟩ : Shape).Reduces [0] (⟨1, ![b]⟩ : Shape)) (u : Fin b)
    (k : Fin ((⟨2, ![a, b]⟩ : Shape).size 0)) : h.lift (ix1 u) k = ix2 (⟨k.val, k.isLt⟩ : Fin a) u := by
  funext c; apply Fin.ext
  fin_cases c <;> rfl

/-- A maximum over the first axis, at column `u`: the fold of `max`, from the accumulator's value, down the column. -/
theorem colMax_apply {a b : ℕ} (src : FVec Ideal ⟨2, ![a, b]⟩ .f32) (acc : BitVec 32)
    (h : (⟨2, ![a, b]⟩ : Shape).Reduces [0] (⟨1, ![b]⟩ : Shape)) (hφ : FKind.Formats .f32)
    (hacc : acc = FKind.maximumf.neutral .f32 hφ) (u : Fin b) :
    multiReduction .maximumf [0] ⟨1, ![b]⟩ src acc h hφ hacc (ix1 u)
      = (Finset.univ : Finset (Fin a)).fold max (Ideal.ofBits .f32 acc) (fun k => src (ix2 k u)) := by
  refine (Ideal.multiReduction_maximumf_single src acc h hφ hacc (ix1 u)).trans ?_
  have hf : (src ∘ h.lift (ix1 u)) = fun k : Fin a => src (ix2 k u) := funext fun k => congrArg src (lift_col h u k)
  exact congrArg (fun f => Finset.fold max (Ideal.ofBits .f32 acc) f (Finset.univ : Finset (Fin a))) hf

/-- A sum over the first axis, at column `u`: the sum down the column. -/
theorem colSum_apply {a b : ℕ} (src : FVec Ideal ⟨2, ![a, b]⟩ .f32) (acc : BitVec 32)
    (h : (⟨2, ![a, b]⟩ : Shape).Reduces [0] (⟨1, ![b]⟩ : Shape)) (hφ : FKind.Formats .f32)
    (hacc : acc = FKind.add.neutral .f32 hφ) (u : Fin b) :
    multiReduction .add [0] ⟨1, ![b]⟩ src acc h hφ hacc (ix1 u) = ∑ k : Fin a, src (ix2 k u) := by
  refine (Ideal.multiReduction_add_single src acc h hφ hacc (ix1 u)).trans ?_
  exact Finset.sum_congr rfl fun k _ => congrArg src (lift_col h u k)

/-- A `[1, 1]` cell broadcast to an `[a, 1]` column reads, at every row, the cell. -/
theorem broadcastTo_cell_col_apply {a : ℕ} (v : (⟨2, ![1, 1]⟩ : Shape).Idx → α)
    (h : (⟨2, ![1, 1]⟩ : Shape).Broadcasts ⟨2, ![a, 1]⟩) (p : Fin a) (u : Fin 1) :
    broadcastTo ⟨2, ![a, 1]⟩ v h (ix2 p u) = v (ix2 (0 : Fin 1) (0 : Fin 1)) := by
  refine broadcastTo_apply v h (ix2 p u) (ix2 (0 : Fin 1) (0 : Fin 1)) fun ax => ?_
  match ax with
  | ⟨0, _⟩ => rfl
  | ⟨1, _⟩ => rfl

end ColReduce

end
-- ==== Proof.LibRowVector.lean ====
/-
  A length-n vector laid out as a 1×n row, and a 1×n row copied to every row of an R×n matrix, read at an entry.

  * `broadcastTo_row`: a 1×n row broadcast to R×n holds, at (p, k), the row's entry (0, k) — for n ≠ 1
    (a unit axis of the operand is the one that is copied; a length-1 last axis would be copied too).
  * `shapeCast_row`: a length-n vector reshaped to a 1×n row holds, at (0, k), the vector's entry k: both sit at
    row-major position k.
-/
import Idealize.ShloMosaic.Lib.Pipeline.Value
import Idealize.ShloMosaic.Lib.ValueIdx

noncomputable section

namespace Cert.RowVector

open Idealize.ShloMosaic Idealize.ShloMosaic.ValueIdx

variable {α : Type} {R n : Nat}

/-- A 1×n row copied to every row of an R×n matrix, at (p, k): the row at (0, k). -/
theorem broadcastTo_row (hn : n ≠ 1) (v : (⟨2, ![1, n]⟩ : Shape).Idx → α)
    (h : (⟨2, ![1, n]⟩ : Shape).Broadcasts ⟨2, ![R, n]⟩) (p : Fin R) (k : Fin n) :
    broadcastTo ⟨2, ![R, n]⟩ v h (ix2 p k) = v (ix2 0 k) :=
  broadcastTo_apply v h (ix2 p k) (ix2 0 k) (fun a => match a with
    | ⟨0, _⟩ => by
      show (0 : Nat) = if (1 : Nat) = 1 then 0 else _
      rw [if_pos rfl]
    | ⟨1, _⟩ => by
      show k.val = if n = 1 then 0 else k.val
      rw [if_neg hn])

/-- A length-n vector reshaped to a 1×n row, at (0, k): the vector at k. -/
theorem shapeCast_row (x : (⟨1, ![n]⟩ : Shape).Idx → α)
    (h : (⟨1, ![n]⟩ : Shape).ShapeCasts ⟨2, ![1, n]⟩) (k : Fin n) :
    shapeCast ⟨2, ![1, n]⟩ x h (ix2 0 k) = x (ix1 k) :=
  shapeCast_apply x h (ix2 0 k) (ix1 k) (by
    rw [Shape.rowMajor_val_two, Shape.rowMajor_val_one]
    show k.val = 0 * n + k.val
    omega)

end Cert.RowVector

end
-- ==== Proof.LibPlainDot.lean ====
/-
  The plain matrix product read at one entry, at the ideal values.

  Take dimension numbers that contract the left operand's column axis against the right operand's row axis and
  have no batch axis: an m×k matrix A times a k×n matrix B. Then a kernel's `tpu.matmul` into the zero
  accumulator and the host's `dot_general` both hold, at entry (a, b), the sum over the contracted coordinate c
  of A(a, c) · B(c, b) — in the extended reals, with no finiteness asked, since both are that sum by definition
  once the contraction index is renamed by its one coordinate.

  The dimension record may be any record equal to the library's `DotDims.plain m k n`; for a record written out
  with those lists the equality is `rfl`.
-/
import Idealize.ShloMosaic.PureOps.Ideal.Laws
import Idealize.ShloMosaic.Lib.ValueIdx

noncomputable section

open scoped BigOperators

namespace Cert.PlainDot

open Idealize.ShloMosaic Idealize.ShloMosaic.ValueIdx

variable {m k n : Nat} {φ₁ φ₂ : FTy}

/-- The left operand's row coordinate is the output's row. -/
theorem lhsIdx_plain_0 (j : (⟨2, ![m, n]⟩ : Shape).Idx) (q : (DotDims.plain m k n).contr.Idx) :
    ((DotDims.plain m k n).lhsIdx j q 0).val = (j 0).val := by
  unfold DotDims.lhsIdx
  rw [dif_neg (show ¬(0 : Fin 2) ∈ (DotDims.plain m k n).lhsBatch from List.not_mem_nil),
    dif_pos (show (0 : Fin 2) ∈ (DotDims.plain m k n).lhsNonContracting from List.mem_singleton.mpr rfl)]
  rfl

/-- The left operand's column coordinate is the contraction coordinate. -/
theorem lhsIdx_plain_1 (j : (⟨2, ![m, n]⟩ : Shape).Idx) (q : (DotDims.plain m k n).contr.Idx) :
    ((DotDims.plain m k n).lhsIdx j q 1).val = (q ⟨0, Nat.one_pos⟩).val :=
  (DotDims.plain m k n).lhsIdx_val_of_single rfl j q

/-- The right operand's row coordinate is the contraction coordinate. -/
theorem rhsIdx_plain_0 (j : (⟨2, ![m, n]⟩ : Shape).Idx) (q : (DotDims.plain m k n).contr.Idx) :
    ((DotDims.plain m k n).rhsIdx j q 0).val = (q ⟨0, Nat.one_pos⟩).val :=
  (DotDims.plain m k n).rhsIdx_val_of_single rfl j q

/-- The right operand's column coordinate is the output's column. -/
theorem rhsIdx_plain_1 (j : (⟨2, ![m, n]⟩ : Shape).Idx) (q : (DotDims.plain m k n).contr.Idx) :
    ((DotDims.plain m k n).rhsIdx j q 1).val = (j 1).val := by
  unfold DotDims.rhsIdx
  rw [dif_neg (show ¬(1 : Fin 2) ∈ (DotDims.plain m k n).rhsBatch from List.not_mem_nil),
    dif_pos (show (1 : Fin 2) ∈ (DotDims.plain m k n).rhsNonContracting from List.mem_singleton.mpr rfl)]
  rfl

/-- At output entry (a, b) and contraction coordinate c the left operand is read at (a, c). -/
theorem lhsIdx_plain (a : Fin m) (b : Fin n) (c : Fin k) :
    (DotDims.plain m k n).lhsIdx (ix2 a b) ((contrEquiv1 (DotDims.plain m k n) k rfl rfl).symm c) = ix2 a c := by
  have hc := contrEquiv1_symm_val (DotDims.plain m k n) k rfl rfl c
  funext ax
  apply Fin.ext
  match ax with
  | ⟨0, _⟩ => exact lhsIdx_plain_0 _ _
  | ⟨1, _⟩ => exact (lhsIdx_plain_1 _ _).trans hc

/-- At output entry (a, b) and contraction coordinate c the right operand is read at (c, b). -/
theorem rhsIdx_plain (a : Fin m) (b : Fin n) (c : Fin k) :
    (DotDims.plain m k n).rhsIdx (ix2 a b) ((contrEquiv1 (DotDims.plain m k n) k rfl rfl).symm c) = ix2 c b := by
  have hc := contrEquiv1_symm_val (DotDims.plain m k n) k rfl rfl c
  funext ax
  apply Fin.ext
  match ax with
  | ⟨0, _⟩ => exact (rhsIdx_plain_0 _ _).trans hc
  | ⟨1, _⟩ => exact rhsIdx_plain_1 _ _

/-- The sum over the contraction index of a plain product is the sum over its one coordinate. -/
theorem sum_contr_plain (A : (⟨2, ![m, k]⟩ : Shape).Idx → EReal) (B : (⟨2, ![k, n]⟩ : Shape).Idx → EReal)
    (a : Fin m) (b : Fin n) :
    (∑ q : (DotDims.plain m k n).contr.Idx,
        A ((DotDims.plain m k n).lhsIdx (ix2 a b) q) * B ((DotDims.plain m k n).rhsIdx (ix2 a b) q))
      = ∑ c : Fin k, A (ix2 a c) * B (ix2 c b) := by
  rw [← Equiv.sum_comp (contrEquiv1 (DotDims.plain m k n) k rfl rfl).symm]
  refine Finset.sum_congr rfl fun c _ => ?_
  rw [lhsIdx_plain, rhsIdx_plain]

/-- A `tpu.matmul` into the zero accumulator, with the plain dimension numbers, at entry (a, b):
    the sum over c of A(a, c) · B(c, b). -/
theorem matmul_zero_apply (D : DotDims ⟨2, ![m, k]⟩ ⟨2, ![k, n]⟩ ⟨2, ![m, n]⟩) (hD : D = DotDims.plain m k n)
    (prec : Option ContractPrecision) (A : FVec Ideal ⟨2, ![m, k]⟩ φ₁) (B : FVec Ideal ⟨2, ![k, n]⟩ φ₂)
    (a : Fin m) (b : Fin n) :
    FloatOps.matmul D prec A B (constant (F := Ideal) ⟨2, ![m, n]⟩ .f32 0x00000000#32) (ix2 a b)
      = ∑ c : Fin k, A (ix2 a c) * B (ix2 c b) := by
  subst hD
  rw [Ideal.matmul_constant_zero_apply]
  exact sum_contr_plain A B a b

/-- The host's `dot_general` with the plain dimension numbers, at entry (a, b): the same sum. -/
theorem dotGeneral_apply (D : DotDims ⟨2, ![m, k]⟩ ⟨2, ![k, n]⟩ ⟨2, ![m, n]⟩) (hD : D = DotDims.plain m k n)
    (prec : Option ContractPrecision) (sched : HostSchedule) (A : FVec Ideal ⟨2, ![m, k]⟩ φ₁)
    (B : FVec Ideal ⟨2, ![k, n]⟩ φ₂) (a : Fin m) (b : Fin n) :
    FloatOps.dotGeneral D prec sched A B (ix2 a b) = ∑ c : Fin k, A (ix2 a c) * B (ix2 c b) := by
  subst hD
  rw [Ideal.dotGeneral_apply]
  exact sum_contr_plain A B a b

end Cert.PlainDot

end
-- ==== Proof.Pay.lean ====
/-
  The body's stored value read at one entry, at the ideal values.

  With X a 25600 x 128 block of x and C the 16 x 128 table of centers, entry (k, b) of the stored
  16 x 25600 array is the soft assignment of row b of X to center k: the squared norms are a sum down a
  column of the transposed block and a sum along a row of C * C, the inner products are the matrix product of C
  with the transposed block, and the normaliser is a sum down the 16 weights of column b.  In particular the
  entry depends on X through its row b alone.
-/
import proofs.«134959_g24592982736908_cont_9to1_845_14_alg».proof.Proof.Gen.KernelIdeal.Skeleton
import proofs.«134959_g24592982736908_cont_9to1_845_14_alg».proof.Proof.LibSoftAssign
import proofs.«134959_g24592982736908_cont_9to1_845_14_alg».proof.Proof.LibLits
import proofs.«134959_g24592982736908_cont_9to1_845_14_alg».proof.Proof.LibRowOps
import proofs.«134959_g24592982736908_cont_9to1_845_14_alg».proof.Proof.LibColReduce
import proofs.«134959_g24592982736908_cont_9to1_845_14_alg».proof.Proof.LibRowVector
import proofs.«134959_g24592982736908_cont_9to1_845_14_alg».proof.Proof.LibPlainDot
import Idealize.ShloMosaic.Lib.Pipeline.Value
import Idealize.ShloMosaic.Lib.ValueIdx
import Idealize.ShloMosaic.PureOps.Ideal.Laws

set_option maxRecDepth 16384

noncomputable section

namespace Cert.KernelIdeal.Pay

open Cert.KernelIdeal Cert.KernelIdeal.Facts₀
open Cert.KernelIdeal.Gen (k0_pay1)
open Idealize.ShloMosaic Idealize.ShloMosaic.ValueIdx
open Cert.SoftAssign

variable [Facts]

/-- Row b of a block of x, and row k of the table. -/
abbrev xrow (X : S25600x128.Idx → EReal) (b : Fin 25600) : Fin 128 → EReal := fun d => X (ix2 b d)
abbrev crow (C : S16x128.Idx → EReal) (k : Fin 16) : Fin 128 → EReal := fun d => C (ix2 k d)

/-! ## The stages of the stored value -/

/-- The transposed block. -/
def xT (X : FVec Ideal S25600x128 .f32) : FVec Ideal S128x25600 .f32 :=
  transpose S128x25600 [1, 0] X transposes_S25600x128_p1_0_S128x25600
/-- The squared norms of the block's rows, as a 1 x 25600 row. -/
def x2row (X : FVec Ideal S25600x128 .f32) : FVec Ideal S1x25600 .f32 :=
  shapeCast S1x25600 (multiReduction .add [0] S25600 (mulf (xT X) (xT X)) 0x00000000#32 reduces_S128x25600_S25600 (.inl rfl) rfl)
    shapeCasts_S25600_S1x25600
/-- The squared norms of the centers, as a 16 x 1 column. -/
def c2col (C : FVec Ideal S16x128 .f32) : FVec Ideal S16x1 .f32 :=
  shapeCast S16x1 (multiReduction .add [1] S16 (mulf C C) 0x00000000#32 reduces_S16x128_S16 (.inl rfl) rfl) shapeCasts_S16_S16x1
/-- The inner products of every center with every row. -/
def prods (X : FVec Ideal S25600x128 .f32) (C : FVec Ideal S16x128 .f32) : FVec Ideal S16x25600 .f32 :=
  matmul dot_S16x128_S128x25600_S16x25600_1_0_0_1_n_n none C (xT X) (constant S16x25600 .f32 0x00000000#32)
/-- The clamped squared distances. -/
def dists (X : FVec Ideal S25600x128 .f32) (C : FVec Ideal S16x128 .f32) : FVec Ideal S16x25600 .f32 :=
  maximumf (subf (addf (broadcastTo S16x25600 (x2row X) broadcasts_S1x25600_S16x25600)
      (broadcastTo S16x25600 (c2col C) broadcasts_S16x1_S16x25600))
    (mulf (broadcast S16x25600 (Scalar.ofBits .f32 0x40000000#32)) (prods X C)))
    (broadcast S16x25600 (Scalar.ofBits .f32 0x00000000#32))
/-- The weights. -/
def wts (X : FVec Ideal S25600x128 .f32) (C : FVec Ideal S16x128 .f32) : FVec Ideal S16x25600 .f32 :=
  divf (broadcast S16x25600 (Scalar.ofBits .f32 0x3F800000#32))
    (addf (broadcast S16x25600 (Scalar.ofBits .f32 0x3F800000#32)) (dists X C))
/-- The sums of the weights over the centers, as a 1 x 25600 row. -/
def wsum (X : FVec Ideal S25600x128 .f32) (C : FVec Ideal S16x128 .f32) : FVec Ideal S1x25600 .f32 :=
  shapeCast S1x25600 (multiReduction .add [0] S25600 (wts X C) 0x00000000#32 reduces_S16x25600_S25600 (.inl rfl) rfl)
    shapeCasts_S25600_S1x25600

/-- The stored value is the weights times the broadcast reciprocals of their column sums. -/
theorem pay_eq (X : FVec Ideal S25600x128 .f32) (C : FVec Ideal S16x128 .f32) :
    k0_pay1 (F := Ideal) X C
      = mulf (wts X C) (broadcastTo S16x25600
          (divf (broadcast S1x25600 (Scalar.ofBits .f32 0x3F800000#32)) (wsum X C)) broadcasts_S1x25600_S16x25600) := rfl

/-! ## Each stage at an entry -/

theorem xT_apply (X : FVec Ideal S25600x128 .f32) (d : Fin 128) (b : Fin 25600) : xT X (ix2 d b) = X (ix2 b d) :=
  transpose_apply [1, 0] X transposes_S25600x128_p1_0_S128x25600 (ix2 d b) (ix2 b d) (fun a => match a with
    | ⟨0, _⟩ => rfl
    | ⟨1, _⟩ => rfl)

theorem x2row_apply (X : FVec Ideal S25600x128 .f32) (b : Fin 25600) : x2row X (ix2 0 b) = sqn (xrow X b) := by
  unfold x2row
  refine (Cert.RowVector.shapeCast_row _ _ b).trans ?_
  refine (ColReduce.colSum_apply _ _ _ _ _ b).trans ?_
  unfold sqn
  refine Finset.sum_congr rfl fun d _ => ?_
  show xT X (ix2 d b) * xT X (ix2 d b) = _
  rw [xT_apply]

theorem c2col_apply (C : FVec Ideal S16x128 .f32) (k : Fin 16) : c2col C (ix2 k 0) = sqn (crow C k) := by
  unfold c2col
  refine (RowOps.shapeCast_a_a1_apply _ _ k 0).trans ?_
  refine (RowOps.rowSum_apply _ _ _ _ _ k).trans ?_
  rfl

theorem prods_apply (X : FVec Ideal S25600x128 .f32) (C : FVec Ideal S16x128 .f32) (k : Fin 16) (b : Fin 25600) :
    prods X C (ix2 k b) = dotp (crow C k) (xrow X b) := by
  unfold prods
  refine (Cert.PlainDot.matmul_zero_apply _ rfl none C (xT X) k b).trans ?_
  unfold dotp
  refine Finset.sum_congr rfl fun d _ => ?_
  rw [xT_apply]

theorem dists_apply (X : FVec Ideal S25600x128 .f32) (C : FVec Ideal S16x128 .f32) (k : Fin 16) (b : Fin 25600) :
    dists X C (ix2 k b) = sqdist (xrow X b) (crow C k) := by
  simp only [dists, maximumf, subf, addf, mulf, broadcast, Ideal.maximumf_def, Ideal.subf_def, Ideal.addf_def,
    Ideal.mulf_def, Ideal.ofBits_def]
  rw [Cert.RowVector.broadcastTo_row (by decide), RowOps.broadcastTo_a1_ab_apply, x2row_apply, c2col_apply, prods_apply,
    Cert.Lits.two, Cert.Lits.zero]
  rfl

theorem wts_apply (X : FVec Ideal S25600x128 .f32) (C : FVec Ideal S16x128 .f32) (k : Fin 16) (b : Fin 25600) :
    wts X C (ix2 k b) = wgt (xrow X b) (crow C k) := by
  simp only [wts, divf, addf, broadcast, Ideal.divf_def, Ideal.addf_def, Ideal.ofBits_def]
  rw [dists_apply, Cert.Lits.one]
  rfl

theorem wsum_apply (X : FVec Ideal S25600x128 .f32) (C : FVec Ideal S16x128 .f32) (b : Fin 25600) :
    wsum X C (ix2 0 b) = ∑ j : Fin 16, wgt (xrow X b) (crow C j) := by
  unfold wsum
  refine (Cert.RowVector.shapeCast_row _ _ b).trans ?_
  refine (ColReduce.colSum_apply _ _ _ _ _ b).trans ?_
  exact Finset.sum_congr rfl fun j _ => wts_apply X C j b

/-- The reciprocals of the column sums, as a 1 x 25600 row, at an entry. -/
theorem recip_apply (X : FVec Ideal S25600x128 .f32) (C : FVec Ideal S16x128 .f32) (b : Fin 25600) :
    divf (broadcast S1x25600 (Scalar.ofBits (F := Ideal) .f32 0x3F800000#32)) (wsum X C) (ix2 0 b)
      = Ideal.div ((1 : ℝ) : EReal) (∑ j : Fin 16, wgt (xrow X b) (crow C j)) := by
  simp only [divf, broadcast, Ideal.divf_def, Ideal.ofBits_def]
  rw [wsum_apply, Cert.Lits.one]

/-- Entry (k, b) of the stored value: the soft assignment of row b of the block to center k. -/
theorem pay_apply (X : FVec Ideal S25600x128 .f32) (C : FVec Ideal S16x128 .f32) (k : Fin 16) (b : Fin 25600) :
    k0_pay1 (F := Ideal) X C (ix2 k b) = assign (xrow X b) (fun j => crow C j) k := by
  rw [pay_eq]
  unfold mulf
  simp only [Ideal.mulf_def]
  rw [Cert.RowVector.broadcastTo_row (by decide), wts_apply, recip_apply]
  rfl

/-- Two blocks with the same row b give the same column b of the stored value. -/
theorem pay_congr_row (X X' : FVec Ideal S25600x128 .f32) (C : FVec Ideal S16x128 .f32) (k : Fin 16) (b : Fin 25600)
    (h : ∀ d : Fin 128, X (ix2 b d) = X' (ix2 b d)) :
    k0_pay1 (F := Ideal) X C (ix2 k b) = k0_pay1 (F := Ideal) X' C (ix2 k b) := by
  rw [pay_apply, pay_apply]
  exact congrArg (fun r => assign r (fun j => crow C j) k) (funext h)

end Cert.KernelIdeal.Pay

end
-- ==== Proof.Value.lean ====
/-
  What the call leaves in its result array, at the ideal values.

  Point t of the grid handles rows 25600 t .. 25600 t + 25599 of x (the last point only the 23200 rows that
  exist) and writes columns of the same numbers of the 16 x 100000 transposed result.  Column b of the block
  a point stores is computed from row b of the block of x alone, so what lies in x's buffer past the array's
  end never reaches a column that is written back; and entry (k, i) of the array after the four write-backs
  is the soft assignment of row i of x to center k.
-/
import proofs.«134959_g24592982736908_cont_9to1_845_14_alg».proof.Proof.Run
import proofs.«134959_g24592982736908_cont_9to1_845_14_alg».proof.Proof.Pay
import Idealize.ShloMosaic.Lib.Pipeline.Value
import Idealize.ShloMosaic.Lib.StableHlo.Run

set_option maxRecDepth 16384

noncomputable section

namespace Cert.KernelIdeal.Final

open Cert.KernelIdeal Cert.KernelIdeal.Gen Cert.KernelIdeal.Hand
open Idealize.ShloMosaic Idealize.ShloMosaic.TcCoe Idealize.ShloMosaic.ValueIdx
open Idealize.SL.Sem
open Idealize.ShloMosaic.Pipeline (Dat Cfg Window)
open Cert.SoftAssign

variable (m : (ℓ : Loc nD τ sig) → Buf (Elt Ideal) ℓ) (ρ : Dev nD → PrngReg)

/-- The transposed result as one function of the inputs: entry (k, i) is the soft assignment of row i of x to
    center k. -/
def QT (x : S100000x128.Idx → EReal) (C : S16x128.Idx → EReal) : S16x100000.Idx → EReal := fun j =>
  assign (fun d : Fin 128 => x (ix2 (⟨(j 1).val, (j 1).isLt⟩ : Fin 100000) d))
    (fun (k : Fin 16) (d : Fin 128) => C (ix2 k d)) (⟨(j 0).val, (j 0).isLt⟩ : Fin 16)

/-- The assignment depends on its three arguments only. -/
theorem assign_congr {f f' : Fin 128 → EReal} {C C' : Fin 16 → Fin 128 → EReal} {k k' : Fin 16}
    (hf : f = f') (hC : C = C') (hk : k = k') : assign f C k = assign f' C' k' := by
  subst hf; subst hC; subst hk; rfl

/-- The index maps over the grid: x's block and the result's block move together (rows of x, columns of the result),
    the centers' block does not move, and the last point's blocks are cut to the 23200 rows that exist. -/
theorem grid_facts : ∀ t : Fin cfg0.N,
    win0_0.index t (0 : Fin 2) = win0_2.index t (1 : Fin 2) ∧ win0_0.index t (1 : Fin 2) = 0
    ∧ win0_2.index t (0 : Fin 2) = 0 ∧ win0_1.index t (0 : Fin 2) = 0 ∧ win0_1.index t (1 : Fin 2) = 0
    ∧ win0_0.xsize (grid0.coords t) (0 : Fin 2) = win0_2.xsize (grid0.coords t) (1 : Fin 2)
    ∧ win0_0.xsize (grid0.coords t) (1 : Fin 2) = 128
    ∧ win0_2.xsize (grid0.coords t) (0 : Fin 2) = 16
    ∧ win0_2.index t (1 : Fin 2) = t.val
    ∧ ((t.val < 3 ∧ win0_2.xsize (grid0.coords t) (1 : Fin 2) = 25600)
        ∨ (t.val = 3 ∧ win0_2.xsize (grid0.coords t) (1 : Fin 2) = 23200)) :=
  (by decide +kernel : ∀ t : Fin grid0.N, _)

/-! ## Each column from one row -/

theorem column_local (c : Dev nD) : ColumnLocal m c := by
  intro t d0
  obtain ⟨e0, e1, e2, e3, e4, e5, e6, e7, e8, e9⟩ := grid_facts t
  funext y
  have h0 : (y 0).val < win0_2.xsize (grid0.coords t) (0 : Fin 2) := (y 0).isLt
  have h1 : (y 1).val < win0_2.xsize (grid0.coords t) (1 : Fin 2) := (y 1).isLt
  have h1' : win0_2.xsize (grid0.coords t) (1 : Fin 2) ≤ 25600 := win0_2.xsize_le (grid0.coords t) 1
  rw [e7] at h0
  have hxinj : win0_2.xinj (grid0.coords t) y = ix2 (⟨(y 0).val, h0⟩ : Fin 16) (⟨(y 1).val, by omega⟩ : Fin 25600) :=
    funext fun a => Fin.ext (by match a with | ⟨0, _⟩ => rfl | ⟨1, _⟩ => rfl)
  show k0_pay1 (F := Ideal) (win0_0.fill (grid0.coords t) d0 (xrows m c t)) (ctab m c t) (win0_2.xinj (grid0.coords t) y)
    = outblk m c t (win0_2.xinj (grid0.coords t) y)
  rw [hxinj]
  unfold outblk
  refine Cert.KernelIdeal.Pay.pay_congr_row _ _ _ _ _ fun d => ?_
  have hm : win0_0.moved (grid0.coords t) (ix2 (⟨(y 1).val, by omega⟩ : Fin 25600) d) = true :=
    (win0_0.moved_iff _ _).mpr fun a => by
      match a with
      | ⟨0, _⟩ => show (y 1).val < win0_0.xsize (grid0.coords t) (0 : Fin 2); rw [e5]; exact h1
      | ⟨1, _⟩ => show d.val < win0_0.xsize (grid0.coords t) (1 : Fin 2); rw [e6]; exact d.isLt
  unfold xfull Window.fill
  rw [dif_pos hm, dif_pos hm]

/-! ## What each point writes back -/

/-- Point t writes back block t of `QT` of the inputs as the call finds them. -/
theorem flushed_eq (c : Dev nD) (t : Fin cfg0.N) :
    (dats m 0 c).flushed 2 t
      = ((cfg0.win 2).blk t).view.read (Elt Ideal) (QT (V m c main_arg0) (V m c main_arg1)) := by
  obtain ⟨e0, e1, e2, e3, e4, e5, e6, e7, e8, e9⟩ := grid_facts t
  funext y
  have h0 : (y 0).val < win0_2.xsize (grid0.coords t) (0 : Fin 2) := (y 0).isLt
  have h1 : (y 1).val < win0_2.xsize (grid0.coords t) (1 : Fin 2) := (y 1).isLt
  have h1' : win0_2.xsize (grid0.coords t) (1 : Fin 2) ≤ 25600 := win0_2.xsize_le (grid0.coords t) 1
  rw [e7] at h0
  have hxinj : win0_2.xinj (grid0.coords t) y = ix2 (⟨(y 0).val, h0⟩ : Fin 16) (⟨(y 1).val, by omega⟩ : Fin 25600) :=
    funext fun a => Fin.ext (by match a with | ⟨0, _⟩ => rfl | ⟨1, _⟩ => rfl)
  show outblk m c t (win0_2.xinj (grid0.coords t) y)
    = QT (V m c main_arg0) (V m c main_arg1) (((cfg0.win 2).blk t).view.emb y)
  rw [hxinj]
  unfold outblk
  rw [Cert.KernelIdeal.Pay.pay_apply]
  unfold QT
  refine assign_congr (funext fun d => ?_) (funext fun k => funext fun d => ?_) (Fin.ext ?_)
  · -- row (y 1) of x's full block is row 25600 t + (y 1) of x
    have hm : win0_0.moved (grid0.coords t) (ix2 (⟨(y 1).val, by omega⟩ : Fin 25600) d) = true :=
      (win0_0.moved_iff _ _).mpr fun a => by
        match a with
        | ⟨0, _⟩ => show (y 1).val < win0_0.xsize (grid0.coords t) (0 : Fin 2); rw [e5]; exact h1
        | ⟨1, _⟩ => show d.val < win0_0.xsize (grid0.coords t) (1 : Fin 2); rw [e6]; exact d.isLt
    show xfull m c t (ix2 (⟨(y 1).val, by omega⟩ : Fin 25600) d) = _
    unfold xfull Window.fill
    rw [dif_pos hm]
    unfold xrows iblk
    show V m c main_arg0 (((cfg0.win 0).blk t).view.emb _) = V m c main_arg0 _
    refine congrArg (V m c main_arg0) (funext fun a => Fin.ext ?_)
    match a with
    | ⟨0, _⟩ =>
      show win0_0.index t (0 : Fin 2) * 25600 + 1 * (y 1).val = win0_2.index t (1 : Fin 2) * 25600 + 1 * (y 1).val
      rw [e0]
    | ⟨1, _⟩ =>
      show win0_0.index t (1 : Fin 2) * 128 + 1 * d.val = d.val
      rw [e1]; omega
  · -- the centers' block is the whole table
    show ctab m c t (ix2 k d) = _
    unfold ctab iblk
    show V m c main_arg1 (((cfg0.win 1).blk t).view.emb (ix2 k d)) = V m c main_arg1 (ix2 k d)
    refine congrArg (V m c main_arg1) (funext fun a => Fin.ext ?_)
    match a with
    | ⟨0, _⟩ =>
      show win0_1.index t (0 : Fin 2) * 16 + 1 * k.val = k.val
      rw [e3]; omega
    | ⟨1, _⟩ =>
      show win0_1.index t (1 : Fin 2) * 128 + 1 * d.val = d.val
      rw [e4]; omega
  · show (y 0).val = win0_2.index t (0 : Fin 2) * 16 + 1 * (y 0).val
    rw [e2]; omega

/-! ## The four blocks cover the array -/

/-- An index of the result array is in point t's block iff each coordinate is in the block's range, cut at the
    array's end. -/
theorem mem_blk (t : Fin cfg0.N) (i : S16x100000.Idx) :
    i ∈ ((cfg0.win 2).blk t).view.set ↔ ∀ a : Fin 2, win0_2.index t a * S16x25600.size a ≤ (i a).val
      ∧ (i a).val < win0_2.index t a * S16x25600.size a + win0_2.xsize (grid0.coords t) a := by
  show i ∈ ((View.whole main_v0).slice (win0_2.rect t)).set ↔ _
  rw [View.set_slice_whole, Rect.mem_set_unit]
  exact Iff.rfl

/-- Column i is written by point i / 25600. -/
theorem cover (i : S16x100000.Idx) :
    ∃ t : Fin cfg0.N, (cfg0.win 2).flush t = true ∧ i ∈ ((cfg0.win 2).blk t).view.set := by
  have hi0 : (i 0).val < 16 := (i 0).isLt
  have hi1 : (i 1).val < 100000 := (i 1).isLt
  have hN : grid0.N = 4 := N_0
  have ht : (i 1).val / 25600 < grid0.N := by omega
  obtain ⟨e0, e1, e2, e3, e4, e5, e6, e7, e8, e9⟩ := grid_facts ⟨(i 1).val / 25600, ht⟩
  refine ⟨⟨(i 1).val / 25600, ht⟩, flush0_2 _, (mem_blk _ i).mpr fun a => ?_⟩
  match a with
  | ⟨0, _⟩ =>
    show win0_2.index ⟨(i 1).val / 25600, ht⟩ (0 : Fin 2) * 16 ≤ (i 0).val
      ∧ (i 0).val < win0_2.index ⟨(i 1).val / 25600, ht⟩ (0 : Fin 2) * 16 + win0_2.xsize (grid0.coords ⟨(i 1).val / 25600, ht⟩) (0 : Fin 2)
    rw [e2, e7]; omega
  | ⟨1, _⟩ =>
    show win0_2.index ⟨(i 1).val / 25600, ht⟩ (1 : Fin 2) * 25600 ≤ (i 1).val
      ∧ (i 1).val < win0_2.index ⟨(i 1).val / 25600, ht⟩ (1 : Fin 2) * 25600 + win0_2.xsize (grid0.coords ⟨(i 1).val / 25600, ht⟩) (1 : Fin 2)
    have e8' : win0_2.index ⟨(i 1).val / 25600, ht⟩ (1 : Fin 2) = (i 1).val / 25600 := e8
    rw [e8']
    rcases e9 with ⟨h3, hs⟩ | ⟨h3, hs⟩
    · rw [hs]; omega
    · rw [hs]; have h3' : (i 1).val / 25600 = 3 := h3; omega

/-- After the four write-backs the result array is `QT` of the inputs. -/
theorem final (c : Dev nD) :
    (dats m 0 c).arrAt 2 cfg0.N = QT (V m c main_arg0) (V m c main_arg1) :=
  (dats m 0 c).arrAt_eq_of_cover 2 _ (fun t _ => flushed_eq m c t) cover

/-! ## The transpose after the call, and the run -/

/-- The final result: the 100000 x 16 transpose of `QT`. -/
def result (x : S100000x128.Idx → EReal) (C : S16x128.Idx → EReal) : S100000x16.Idx → EReal :=
  transpose S100000x16 [1, 0] (QT x C) transposes_S16x100000_S100000x16_1_0

/-- The one line after the call transposes what the call left. -/
theorem tail_eq (c : Dev nD) :
    Pipeline.afterTail₀ cfgs (dats m) 0 (V0 m) [hostOps1] c main_v1 = result (V m c main_arg0) (V m c main_arg1) := by
  unfold Pipeline.afterTail₀ result
  show StableHlo.after hostOps1 _ (Proc.devRef .tc main_v1) = _
  after_results
  rw [show Pipeline.withArrays spec0 c (V0 m c) (fun w => (dats m 0 c).arrAt w cfg0.N) (Proc.devRef .tc main_v0)
      = QT (V m c main_arg0) (V m c main_arg1) from
    (Pipeline.withArrays_arr spec0 launch0.win.arr_inj c _ _ 2).trans (final m c)]

/-- The final result's buffer is no array of the call and is not scoped. -/
theorem v1_rest : main_v1 ∈ Pipeline.restRefs sig spec0 :=
  Pipeline.mem_restRefs_of main_v1 rfl (by decide)

/-- At the ideal values every weakly fair execution of the program terminates without a fault, the final
    result is the transposed soft-assignment array of the inputs, and the inputs are unchanged. -/
theorem run :
    θ_run defs (onTc (τ := τ) (main (F := Ideal))) ⟨m, fun _ => 0, ρ⟩ fun r => ∀ c : Dev nD,
      r.2.mem ((c.tc : Thread nD τ).loc main_v1)
          = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v1 v1_rest).trans (tail_eq m c),
      ((h c).1 0).trans (((dats m 0 c).arrAt_in 0 rfl _).trans (V_main_arg0 m c)),
      ((h c).1 1).trans (((dats m 0 c).arrAt_in 1 rfl _).trans (V_main_arg1 m c))⟩)
    (run_main m ρ (column_local m))

end Cert.KernelIdeal.Final

end
-- ==== Proof.RefValue.lean ====
/-
  The reference's result read at one entry, at the ideal values.

  Entry (r, k) of the reference's 100000 x 16 result is the soft assignment of row r of x to center k in the
  reference's own spelling: sums started at zero, the inner product taken as x against the center, the weight
  the power (1 + d / 1) ^ (-1), and the weight divided by the sum of the 16 weights of the row.
-/
import proofs.«134959_g24592982736908_cont_9to1_845_14_alg».proof.Proof.Gen.ReferenceIdeal.Read
import proofs.«134959_g24592982736908_cont_9to1_845_14_alg».proof.Proof.LibSoftAssign
import proofs.«134959_g24592982736908_cont_9to1_845_14_alg».proof.Proof.LibLits

set_option maxRecDepth 16384

noncomputable section

namespace Cert.ReferenceIdeal.RefValue

open Cert.ReferenceIdeal Cert.ReferenceIdeal.Gen Cert.ReferenceIdeal.Read
open Idealize.ShloMosaic Idealize.ShloMosaic.ValueIdx
open Cert.SoftAssign

/-- Row r of x, and row k of the table. -/
abbrev xrow (x : S100000x128.Idx → EReal) (r : Fin 100000) : Fin 128 → EReal := fun d => x (ix2 r d)
abbrev crow (c : S16x128.Idx → EReal) (k : Fin 16) : Fin 128 → EReal := fun d => c (ix2 k d)

/-! ## Where each stage reads its operand -/

theorem idx_x2 (r : Fin 100000) (k : Fin 16) (q : Fin 128) :
    idx_main_v1 (idx_main_v2 (idx_main_v6 (ix2 r k))) q = ix2 r q :=
  funext fun a => Fin.ext (by match a with | ⟨0, _⟩ => rfl | ⟨1, _⟩ => rfl)

theorem idx_c2 (r : Fin 100000) (k : Fin 16) (q : Fin 128) :
    idx_main_v4 (idx_main_v5 (idx_main_v7 (ix2 r k))) q = ix2 k q :=
  funext fun a => Fin.ext (by match a with | ⟨0, _⟩ => rfl | ⟨1, _⟩ => rfl)

theorem idx_lhs (r : Fin 100000) (k : Fin 16) (q : Fin 128) : lidx_main_v10 (ix2 r k) q = ix2 r q :=
  funext fun a => Fin.ext (by match a with | ⟨0, _⟩ => rfl | ⟨1, _⟩ => rfl)

theorem idx_rhs (r : Fin 100000) (k : Fin 16) (q : Fin 128) : idx_main_v9 (ridx_main_v10 (ix2 r k) q) = ix2 k q :=
  funext fun a => Fin.ext (by match a with | ⟨0, _⟩ => rfl | ⟨1, _⟩ => rfl)

theorem idx_wsum (r : Fin 100000) (k : Fin 16) (j : Fin 16) :
    idx_main_v22 (idx_main_v23 (idx_main_v24 (ix2 r k))) j = ix2 r j :=
  funext fun a => Fin.ext (by match a with | ⟨0, _⟩ => rfl | ⟨1, _⟩ => rfl)

/-! ## Each stage at an entry -/

/-- The squared norm of row r, spread over the 16 lanes. -/
theorem x2_apply (x : S100000x128.Idx → EReal) (r : Fin 100000) (k : Fin 16) :
    val_main_v6 (F := Ideal) x (ix2 r k) = ((0 : ℝ) : EReal) + sqn (xrow x r) := by
  rw [val_main_v6_apply, val_main_v2_apply, val_main_v1_apply, val_main_cst_apply, Ideal.ofBits_def, Cert.Lits.zero]
  refine congrArg (_ + ·) (Finset.sum_congr rfl fun q _ => ?_)
  rw [val_main_v0_apply, idx_x2]; rfl

/-- The squared norm of center k, spread over the rows. -/
theorem c2_apply (c : S16x128.Idx → EReal) (r : Fin 100000) (k : Fin 16) :
    val_main_v7 (F := Ideal) c (ix2 r k) = ((0 : ℝ) : EReal) + sqn (crow c k) := by
  rw [val_main_v7_apply, val_main_v5_apply, val_main_v4_apply, val_main_cst_0_apply, Ideal.ofBits_def, Cert.Lits.zero]
  refine congrArg (_ + ·) (Finset.sum_congr rfl fun q _ => ?_)
  rw [val_main_v3_apply, idx_c2]; rfl

/-- The inner product of row r with center k. -/
theorem prod_apply (x : S100000x128.Idx → EReal) (c : S16x128.Idx → EReal) (r : Fin 100000) (k : Fin 16) :
    val_main_v10 (F := Ideal) x c (ix2 r k) = dotp (xrow x r) (crow c k) := by
  rw [val_main_v10_apply]
  refine Finset.sum_congr rfl fun q _ => ?_
  rw [val_main_v9_apply, idx_lhs, idx_rhs]

/-- The clamped squared distance. -/
theorem dist_apply (x : S100000x128.Idx → EReal) (c : S16x128.Idx → EReal) (r : Fin 100000) (k : Fin 16) :
    val_main_v15 (F := Ideal) x c (ix2 r k) = sqdist' (xrow x r) (crow c k) := by
  rw [val_main_v15_apply, val_main_v13_apply, val_main_v8_apply, val_main_v12_apply, val_main_v11_apply,
    val_main_cst_1_apply, val_main_v14_apply, val_main_cst_2_apply, x2_apply, c2_apply, prod_apply]
  simp only [Ideal.maximumf_def, Ideal.subf_def, Ideal.addf_def, Ideal.mulf_def, Ideal.ofBits_def, Cert.Lits.two,
    Cert.Lits.zero]
  rfl

/-- The weight. -/
theorem wgt_apply (x : S100000x128.Idx → EReal) (c : S16x128.Idx → EReal) (r : Fin 100000) (k : Fin 16) :
    val_main_v21 (F := Ideal) x c (ix2 r k) = wgt' (xrow x r) (crow c k) := by
  rw [val_main_v21_apply, val_main_v19_apply, val_main_v18_apply, val_main_cst_4_apply, val_main_v17_apply,
    val_main_v16_apply, val_main_cst_3_apply, val_main_v20_apply, val_main_cst_5_apply, dist_apply]
  simp only [Ideal.hostPowf_def, Ideal.addf_def, Ideal.hostDivf_def, Ideal.ofBits_def, Cert.Lits.one, Cert.Lits.negOne]
  rfl

/-- The sum of the row's 16 weights, spread over the lanes. -/
theorem wsum_apply (x : S100000x128.Idx → EReal) (c : S16x128.Idx → EReal) (r : Fin 100000) (k : Fin 16) :
    val_main_v24 (F := Ideal) x c (ix2 r k) = ((0 : ℝ) : EReal) + ∑ j : Fin 16, wgt' (xrow x r) (crow c j) := by
  rw [val_main_v24_apply, val_main_v23_apply, val_main_v22_apply, val_main_cst_6_apply, Ideal.ofBits_def, Cert.Lits.zero]
  refine congrArg (_ + ·) (Finset.sum_congr rfl fun j _ => ?_)
  rw [idx_wsum, wgt_apply]

/-- Entry (r, k) of the reference's result: the soft assignment of row r to center k, in the reference's spelling. -/
theorem result_apply (x : S100000x128.Idx → EReal) (c : S16x128.Idx → EReal) (r : Fin 100000) (k : Fin 16) :
    val_main_v25 (F := Ideal) x c (ix2 r k) = assign' (xrow x r) (fun j => crow c j) k := by
  rw [val_main_v25_apply, wgt_apply, wsum_apply]
  rfl

end Cert.ReferenceIdeal.RefValue

end
-- ==== Proof.LibFiniteArrays.lean ====
/-
  Arrays all of whose entries are finite.  A program states "every entry of `x` is finite" as: the absolute
  value of every entry is below plus infinity, all these comparisons reduced by "and" into one bit that is 1.
  On the extended reals, `|x| < +∞` excludes both infinities, so such an array is the entrywise coercion of an
  array of real numbers.
-/
import Idealize.ShloMosaic.Lib.ReduceAll
import Idealize.ShloMosaic.Lib.ValueIdx
import Idealize.ShloMosaic.PureOps.Ideal

noncomputable section

namespace Cert.FiniteArrays

open Idealize.ShloMosaic

/-- The scalar shape has one index. -/
instance : Subsingleton (⟨0, ![]⟩ : Shape).Idx := ⟨fun a b => funext fun d => d.elim0⟩

/-- The pattern of plus infinity denotes the top of the extended reals. -/
theorem pos_inf : Ideal.ofBits .f32 0x7F800000#32 = (⊤ : EReal) := by
  simp [Ideal.ofBits, Ideal.ieee]

/-- An extended real whose absolute value compares below plus infinity is a real number. -/
theorem real_of_abs_lt_top (x : EReal)
    (h : FloatOps.cmpf (F := Ideal) (φ := .f32) .olt (FloatOps.hostAbsf x) (FloatOps.ofBits .f32 0x7F800000#32) = 1#1) :
    ∃ r : ℝ, x = (r : EReal) := by
  have h' : Ideal.cmp .olt (max x (-x)) (⊤ : EReal) = 1#1 := by rw [← pos_inf]; exact h
  induction x using EReal.rec with
  | bot => simp [Ideal.cmp] at h'
  | coe r => exact ⟨r, rfl⟩
  | top => simp [Ideal.cmp] at h'

/-- An array whose finiteness test — every `|x i| < +∞`, reduced by "and" from 1 into one bit — answers 1 is the
    entrywise coercion of a real array. -/
theorem exists_real {s : Shape} {axes : List (Fin s.rank)} (x : FVec Ideal s .f32)
    (hb : (⟨0, ![]⟩ : Shape).BroadcastsInDim s (![] : Fin 0 → Fin s.rank)) (hr : s.ReducesTo axes ⟨0, ![]⟩)
    (hu : 0 < (⟨0, ![]⟩ : Shape).numel)
    (e : Host.reduce IntOp.andi (cmpf .olt (Host.absf x) (broadcastInDim s ![] hb (constant ⟨0, ![]⟩ .f32 0x7F800000#32)))
      (constantI ⟨0, ![]⟩ 1 1#1) hr hu ValueIdx.ix0 = 1#1) :
    ∃ f : s.Idx → ℝ, x = fun i => ((f i : ℝ) : EReal) := by
  have h : ∀ i, ∃ r : ℝ, x i = (r : EReal) := fun i =>
    real_of_abs_lt_top (x i) (Host.reduce_andi_all _ _ hr hu _ e i)
  choose f hf using h
  exact ⟨f, funext hf⟩

end Cert.FiniteArrays

end
-- ==== Proof.Finite.lean ====
/-
  The precondition read back: when the finiteness test of both inputs answers 1, x and the table of centers
  are entrywise coercions of real arrays.  The test is the conjunction of two all-entries tests, one per
  input; a conjunction of bits is 1 exactly when both are.
-/
import proofs.«134959_g24592982736908_cont_9to1_845_14_alg».proof.Pre_finite_inputs
import proofs.«134959_g24592982736908_cont_9to1_845_14_alg».proof.Proof.LibFiniteArrays
import Idealize.ShloMosaic.Lib.Affine

noncomputable section

namespace Cert.FiniteInputs

open Idealize.ShloMosaic Cert.Pre_finite_inputs

variable [Cert.Pre_finite_inputs.Facts]

/-- Inputs passing the test are real arrays. -/
theorem reals (x : FVec Ideal S100000x128 .f32) (C : FVec Ideal S16x128 .f32)
    (h : Cert.Pre_finite_inputs.fn (F := Ideal) x C = fun _ => 1#1) :
    (∃ f : S100000x128.Idx → ℝ, x = fun i => ((f i : ℝ) : EReal))
      ∧ (∃ g : S16x128.Idx → ℝ, C = fun i => ((g i : ℝ) : EReal)) := by
  have h0 := congrFun h ValueIdx.ix0
  dsimp only [Cert.Pre_finite_inputs.fn, andi] at h0
  have h1 := IntOp.andi_eq_one.mp h0
  exact ⟨Cert.FiniteArrays.exists_real x _ _ _ h1.1, Cert.FiniteArrays.exists_real C _ _ _ h1.2⟩

end Cert.FiniteInputs

end
-- ==== Proof.lean ====
/-
  A soft k-means assignment (Student-t kernel, one degree of freedom) of 100000 points to 16 centers, computed by a
  blocked call in cluster-major layout and transposed back, against the direct formula.

  Both programs compute, for point i and center k, the weight w_ik = 1 / (1 + max(|x_i|^2 + |c_k|^2 - 2 <x_i, c_k>, 0))
  divided by the sum of the point's 16 weights.  They differ in spelling only: the blocked program sums down the
  columns of a transposed block, multiplies by a reciprocal of the sum, and lays the result out transposed; the
  direct one writes the weight as a power with exponent -1 and divides by the sum.  On finite inputs every quantity
  is a real number, 1 + d >= 1 and the sum of weights is positive, and the two agree entry by entry.  Finiteness is
  used: with every distance infinite the weights all vanish and 0 / 0 differs from 0 * (1 / 0).

  The blocked program reads x in four blocks of 25600 rows, the last reaching past the array's end; each column of
  a stored block depends on one row of x only, so the rows past the end never reach the part that is written back.
  For the word-level program only termination, absence of faults and the unchanged inputs are claimed, and for
  that nothing need be said of the stored block.
-/
import proofs.«134959_g24592982736908_cont_9to1_845_14_alg».proof.Defs
import proofs.«134959_g24592982736908_cont_9to1_845_14_alg».proof.Proof.Gen.Kernel
import proofs.«134959_g24592982736908_cont_9to1_845_14_alg».proof.Proof.Gen.KernelIdeal
import proofs.«134959_g24592982736908_cont_9to1_845_14_alg».proof.Proof.Gen.ReferenceIdeal
import proofs.«134959_g24592982736908_cont_9to1_845_14_alg».proof.Proof.Gen.Pre_finite_inputs
import proofs.«134959_g24592982736908_cont_9to1_845_14_alg».proof.Proof.Gen.ReferenceIdeal.Run
import proofs.«134959_g24592982736908_cont_9to1_845_14_alg».proof.Proof.Gen.ReferenceIdeal.Read
import proofs.«134959_g24592982736908_cont_9to1_845_14_alg».proof.Proof.RunBits
import proofs.«134959_g24592982736908_cont_9to1_845_14_alg».proof.Proof.Value
import proofs.«134959_g24592982736908_cont_9to1_845_14_alg».proof.Proof.RefValue
import proofs.«134959_g24592982736908_cont_9to1_845_14_alg».proof.Proof.Finite
import Idealize.ShloMosaic.Adequacy
import Idealize.ShloMosaic.Init

set_option maxRecDepth 16384

noncomputable section

namespace Cert.Proof

open Idealize.ShloMosaic Idealize.ShloMosaic.ValueIdx Idealize.SL.Sem

/-- The word-level program terminates without a fault and leaves its inputs unchanged. -/
theorem frame_k : Cert.frame_Kernel := fun m ρ _ => Cert.Kernel.Hand.frame_inputs m ρ

/-- So does the program at the ideal values. -/
theorem frame_ki : Cert.frame_KernelIdeal := fun m ρ _ => Cert.KernelIdeal.Hand.frame_inputs m ρ

/-- And the direct formula's program. -/
theorem frame_ri : Cert.frame_ReferenceIdeal := fun m ρ _ =>
  (θ_run Cert.ReferenceIdeal.defs _ _).mono (fun _ h c => (h c).2) (Cert.ReferenceIdeal.Value.run (F := Ideal) m ρ)

/-- No operation of the program was rewritten for the ideal reading. -/
theorem preserves : Cert.preserves_Kernel_KernelIdeal := trivial

/-- On real inputs the transposed blocked result is the direct formula's, entry by entry. -/
theorem result_eq (xr : Cert.KernelIdeal.S100000x128.Idx → ℝ) (cr : Cert.KernelIdeal.S16x128.Idx → ℝ) :
    Cert.ReferenceIdeal.Read.val_main_v25 (F := Ideal) (fun i => ((xr i : ℝ) : EReal)) (fun i => ((cr i : ℝ) : EReal))
      = Cert.KernelIdeal.Final.result (fun i => ((xr i : ℝ) : EReal)) (fun i => ((cr i : ℝ) : EReal)) := by
  funext i
  obtain ⟨r, k, rfl⟩ : ∃ (r : Fin 100000) (k : Fin 16), i = ix2 r k := ⟨i 0, i 1, eq_ix2 i⟩
  rw [Cert.ReferenceIdeal.RefValue.result_apply]
  unfold Cert.KernelIdeal.Final.result
  rw [transpose_apply [1, 0] _ _ (ix2 r k) (ix2 k r) (fun a => match a with | ⟨0, _⟩ => rfl | ⟨1, _⟩ => rfl)]
  unfold Cert.KernelIdeal.Final.QT
  exact Cert.SoftAssign.assign'_eq_assign (fun d => xr (ix2 r d)) (fun j d => cr (ix2 j d)) k

/-- From memories agreeing on finite inputs, both programs run to the end with equal results. -/
theorem algebraic : Cert.algebraic_KernelIdeal_ReferenceIdeal := by
  intro m ρ m' ρ' hpre hagree
  refine ⟨fun c => Cert.KernelIdeal.Final.result (m ((c.tc : Thread Cert.KernelIdeal.nD Cert.KernelIdeal.τ).loc Cert.KernelIdeal.main_arg0))
    (m ((c.tc : Thread Cert.KernelIdeal.nD Cert.KernelIdeal.τ).loc Cert.KernelIdeal.main_arg1)),
    Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v25_eq, (hagree c).1, (hagree c).2]
  show Cert.ReferenceIdeal.Read.val_main_v25 (F := Ideal) _ _ = Cert.KernelIdeal.Final.result _ _
  obtain ⟨⟨xr, hx⟩, ⟨cr, hc⟩⟩ := Cert.FiniteInputs.reals _ _ (hpre c)
  rw [hx, hc]
  exact result_eq xr cr

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
